-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x64 : Shape := ⟨3, ![32, 2048, 64]⟩
abbrev S1024x64 : Shape := ⟨2, ![1024, 64]⟩
abbrev S_ : Shape := ⟨0, ![]⟩
abbrev S65536x1024 : Shape := ⟨2, ![65536, 1024]⟩

class Facts : Prop where
  bcast_S_S32x2048x64 : S_.BroadcastsInDim S32x2048x64 (![] : Fin 0 → Fin S32x2048x64.rank)
  reducesTo_S32x2048x64_S_d0_1_2 : S32x2048x64.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_
  reducesTo_S_S_d : S_.ReducesTo [] S_
  bcast_S_S65536x1024 : S_.BroadcastsInDim S65536x1024 (![] : Fin 0 → Fin S65536x1024.rank)
  reducesTo_S65536x1024_S_d0_1 : S65536x1024.ReducesTo [0, 1] S_

variable [Facts]

def fn_part1 {F : FTy → Type} [FloatOps F] (main_v12 : IVec S_ 1) (main_v15 : IVec S65536x1024 1) (main_c_5 : IVec S_ 1) : IVec S_ 1 :=
  let main_v16 : IVec S_ 1 := (fun x v => Host.reduce IntOp.andi x v reducesTo_S65536x1024_S_d0_1 h_S_) main_v15 main_c_5
  let main_v17 : IVec S_ 1 := andi main_v12 main_v16
  main_v17

def fn {F : FTy → Type} [FloatOps F] (main_arg0 : FVec F S32x2048x64 .f32) (main_arg1 : FVec F S1024x64 .f32) (main_arg2 : FVec F S_ .f32) (main_arg3 : FVec F S65536x1024 .f32) : IVec S_ 1 :=
  let main_v0 : FVec F S32x2048x64 .f32 := Host.absf main_arg0
  let main_cst : FVec F S_ .f32 := constant S_ .f32 0x7F800000#32
  let main_v1 : FVec F S32x2048x64 .f32 := broadcastInDim S32x2048x64 ![] bcast_S_S32x2048x64 main_cst
  let main_v2 : IVec S32x2048x64 1 := cmpf .olt main_v0 main_v1
  let main_c : IVec S_ 1 := constantI S_ 1 1#1
  let main_v3 : IVec S_ 1 := (fun x v => Host.reduce IntOp.andi x v reducesTo_S32x2048x64_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_v13 : FVec F S65536x1024 .f32 := Host.absf main_arg3
  let main_cst_4 : FVec F S_ .f32 := constant S_ .f32 0x7F800000#32
  let main_v14 : FVec F S65536x1024 .f32 := broadcastInDim S65536x1024 ![] bcast_S_S65536x1024 main_cst_4
  let main_v15 : IVec S65536x1024 1 := cmpf .olt main_v13 main_v14
  let main_c_5 : IVec S_ 1 := constantI S_ 1 1#1
  fn_part1 (F := F) main_v12 main_v15 main_c_5
-- ==== Kernel.lean ====
abbrev S32x2048x64 : Shape := ⟨3, ![32, 2048, 64]⟩
abbrev S1024x64 : Shape := ⟨2, ![1024, 64]⟩
abbrev S_ : Shape := ⟨0, ![]⟩
abbrev S65536x1024 : Shape := ⟨2, ![65536, 1024]⟩
abbrev S65536x64 : Shape := ⟨2, ![65536, 64]⟩
abbrev S1x1 : Shape := ⟨2, ![1, 1]⟩
abbrev S64x1024 : Shape := ⟨2, ![64, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩
abbrev S32x2048x1024 : Shape := ⟨3, ![32, 2048, 1024]⟩

abbrev nBuf : Space → Nat
  | .hbm => 22
  | .vmem => 12
  | .smem => 0
  | _ => 0

abbrev bufTy : (tb : Table) → Fin (tcTables nBuf tb) → BufTy
  | .hbm, ⟨0, _⟩ => ⟨S32x2048x64, .f32⟩
  | .hbm, ⟨1, _⟩ => ⟨S1024x64, .f32⟩
  | .hbm, ⟨2, _⟩ => ⟨S_, .f32⟩
  | .hbm, ⟨3, _⟩ => ⟨S65536x1024, .f32⟩
  | .hbm, ⟨4, _⟩ => ⟨S65536x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1x1, .f32⟩
  | .hbm, ⟨11, _⟩ => ⟨S1024x64, .bf16⟩
  | .hbm, ⟨12, _⟩ => ⟨S64x1024, .f32⟩
  | .hbm, ⟨13, _⟩ => ⟨S64x1024, .bf16⟩
  | .hbm, ⟨14, _⟩ => ⟨S1024x64, .f32⟩
  | .hbm, ⟨15, _⟩ => ⟨S_, .f32⟩
  | .hbm, ⟨16, _⟩ => ⟨S1024, .f32⟩
  | .hbm, ⟨17, _⟩ => ⟨S1x1024, .f32⟩
  | .hbm, ⟨18, _⟩ => ⟨S65536x1024, .f32⟩
  | .hbm, ⟨19, _⟩ => ⟨S65536x64, .f32⟩
  | .hbm, ⟨20, _⟩ => ⟨S32x2048x64, .f32⟩
  | .hbm, ⟨21, _⟩ => ⟨S32x2048x1024, .f32⟩
  | .local _ .vmem, ⟨0, _⟩ => ⟨S1024x64, .f32⟩
  | .local _ .vmem, ⟨1, _⟩ => ⟨S1024x64, .f32⟩
  | .local _ .vmem, ⟨2, _⟩ => ⟨S1024x64, .bf16⟩
  | .local _ .vmem, ⟨3, _⟩ => ⟨S64x1024, .bf16⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | .local _ .vmem, ⟨7, _⟩ => ⟨S1x1, .f32⟩
  | .local _ .vmem, ⟨8, _⟩ => ⟨S1024x1024, .f32⟩
  | .local _ .vmem, ⟨9, _⟩ => ⟨S1024x1024, .f32⟩
  | .local _ .vmem, ⟨10, _⟩ => ⟨S1024x64, .f32⟩
  | .local _ .vmem, ⟨11, _⟩ => ⟨S1024x64, .f32⟩
  | _, _ => ⟨S32x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S32x2048x64_S65536x64 : S32x2048x64.ShapeCasts S65536x64
  shapeCasts_S_S1x1 : S_.ShapeCasts S1x1
  bitsLt_bf16_f32 : FTy.bits .bf16 < FTy.bits .f32
  transposes_S1024x64_S64x1024_1_0 : S1024x64.Transposes [1, 0] S64x1024
  reducesTo_S1024x64_S1024_d1 : S1024x64.ReducesTo [1] S1024
  h_S_ : 0 < S_.numel
  shapeCasts_S1024_S1x1024 : S1024.ShapeCasts S1x1024
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x1024_S1024x1024_0_0 : ∀ a, (![0, 0] : Fin 2 → Nat) a + S1024x1024.size a ≤ S1024x1024.size a
  h_S1024x1024 : 0 < S1024x1024.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  reduces_S1024x64_S1024 : S1024x64.Reduces [1] S1024
  shapeCasts_S1024_S1024x1 : S1024.ShapeCasts S1024x1
  broadcasts_S1024x1_S1024x1024 : S1024x1.Broadcasts S1024x1024
  broadcasts_S1x1024_S1024x1024 : S1x1024.Broadcasts S1024x1024
  broadcasts_S1x1_S1024x1024 : S1x1.Broadcasts S1024x1024
  reduces_S1024x1024_S1024 : S1024x1024.Reduces [1] S1024
  shapeCasts_S65536x64_S32x2048x64 : S65536x64.ShapeCasts S32x2048x64
  shapeCasts_S65536x1024_S32x2048x1024 : S65536x1024.ShapeCasts S32x2048x1024
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S65536x64.size a
  hwx0_0 : ∀ i : grid0.Coords, EltTy.bits .f32 = 32 ∨ (Rect.block (s := S65536x64) S1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .bf16 = 32 ∨ (Rect.block (s := S1024x64) S1024x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S64x1024.size a
  hwx0_2 : ∀ i : grid0.Coords, EltTy.bits .bf16 = 32 ∨ (Rect.block (s := S64x1024) S64x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S65536x1024.size a
  hwx0_4 : ∀ i : grid0.Coords, EltTy.bits .f32 = 32 ∨ (Rect.block (s := S65536x1024) S1024x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S65536x1024.size a
  hwx0_6 : ∀ i : grid0.Coords, EltTy.bits .f32 = 32 ∨ (Rect.block (s := S65536x1024) S1024x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x64.size a ≤ S65536x64.size a
  hwx0_7 : ∀ i : grid0.Coords, EltTy.bits .f32 = 32 ∨ (Rect.block (s := S65536x64) S1024x64.size (cc0_transform_7 i) (hinb0_7 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_v0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S64x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1024x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11_0) S1024x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v11_1) S1024x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32x2048x64 : Shape := ⟨3, ![32, 2048, 64]⟩
abbrev S1024x64 : Shape := ⟨2, ![1024, 64]⟩
abbrev S_ : Shape := ⟨0, ![]⟩
abbrev S65536x1024 : Shape := ⟨2, ![65536, 1024]⟩
abbrev S65536x64 : Shape := ⟨2, ![65536, 64]⟩
abbrev S65536 : Shape := ⟨1, ![65536]⟩
abbrev S65536x1 : Shape := ⟨2, ![65536, 1]⟩
abbrev S1024 : Shape := ⟨1, ![1024]⟩
abbrev S1x1024 : Shape := ⟨2, ![1, 1024]⟩
abbrev S64x1024 : Shape := ⟨2, ![64, 1024]⟩
abbrev S32x2048x1024 : Shape := ⟨3, ![32, 2048, 1024]⟩

abbrev nBuf : Space → Nat
  | .hbm => 61
  | .vmem => 0
  | .smem => 0
  | _ => 0

abbrev bufTy : (tb : Table) → Fin (tcTables nBuf tb) → BufTy
  | .hbm, ⟨0, _⟩ => ⟨S32x2048x64, .f32⟩
  | .hbm, ⟨1, _⟩ => ⟨S1024x64, .f32⟩
  | .hbm, ⟨2, _⟩ => ⟨S_, .f32⟩
  | .hbm, ⟨3, _⟩ => ⟨S65536x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S65536x64, .f32⟩
  | .hbm, ⟨10, _⟩ => ⟨S65536x64, .f32⟩
  | .hbm, ⟨11, _⟩ => ⟨S_, .f32⟩
  | .hbm, ⟨12, _⟩ => ⟨S65536, .f32⟩
  | .hbm, ⟨13, _⟩ => ⟨S65536x1, .f32⟩
  | .hbm, ⟨14, _⟩ => ⟨S1024x64, .f32⟩
  | .hbm, ⟨15, _⟩ => ⟨S_, .f32⟩
  | .hbm, ⟨16, _⟩ => ⟨S1024, .f32⟩
  | .hbm, ⟨17, _⟩ => ⟨S1x1024, .f32⟩
  | .hbm, ⟨18, _⟩ => ⟨S65536x1024, .f32⟩
  | .hbm, ⟨19, _⟩ => ⟨S65536x1024, .f32⟩
  | .hbm, ⟨20, _⟩ => ⟨S65536x1024, .f32⟩
  | .hbm, ⟨21, _⟩ => ⟨S64x1024, .f32⟩
  | .hbm, ⟨22, _⟩ => ⟨S65536x1024, .f32⟩
  | .hbm, ⟨23, _⟩ => ⟨S_, .f32⟩
  | .hbm, ⟨24, _⟩ => ⟨S65536x1024, .f32⟩
  | .hbm, ⟨25, _⟩ => ⟨S65536x1024, .f32⟩
  | .hbm, ⟨26, _⟩ => ⟨S65536x1024, .f32⟩
  | .hbm, ⟨27, _⟩ => ⟨S65536x1024, .f32⟩
  | .hbm, ⟨28, _⟩ => ⟨S65536x1024, .f32⟩
  | .hbm, ⟨29, _⟩ => ⟨S65536x1024, .f32⟩
  | .hbm, ⟨30, _⟩ => ⟨S_, .f32⟩
  | .hbm, ⟨31, _⟩ => ⟨S65536x1024, .f32⟩
  | .hbm, ⟨32, _⟩ => ⟨S65536x1024, .f32⟩
  | .hbm, ⟨33, _⟩ => ⟨S65536x1024, .f32⟩
  | .hbm, ⟨34, _⟩ => ⟨S65536x1024, .f32⟩
  | .hbm, ⟨35, _⟩ => ⟨S_, .f32⟩
  | .hbm, ⟨36, _⟩ => ⟨S65536x1024, .f32⟩
  | .hbm, ⟨37, _⟩ => ⟨S65536x1024, .f32⟩
  | .hbm, ⟨38, _⟩ => ⟨S65536x1024, .f32⟩
  | .hbm, ⟨39, _⟩ => ⟨S65536x1024, .f32⟩
  | .hbm, ⟨40, _⟩ => ⟨S65536x1024, .f32⟩
  | .hbm, ⟨41, _⟩ => ⟨S_, .f32⟩
  | .hbm, ⟨42, _⟩ => ⟨S65536x1024, .f32⟩
  | .hbm, ⟨43, _⟩ => ⟨S65536x1024, .f32⟩
  | .hbm, ⟨44, _⟩ => ⟨S_, .f32⟩
  | .hbm, ⟨45, _⟩ => ⟨S65536, .f32⟩
  | .hbm, ⟨46, _⟩ => ⟨S_, .f32⟩
  | .hbm, ⟨47, _⟩ => ⟨S65536, .f32⟩
  | .hbm, ⟨48, _⟩ => ⟨S65536, .f32⟩
  | .hbm, ⟨49, _⟩ => ⟨S65536x1, .f32⟩
  | .hbm, ⟨50, _⟩ => ⟨S65536x1024, .f32⟩
  | .hbm, ⟨51, _⟩ => ⟨S65536x1024, .f32⟩
  | .hbm, ⟨52, _⟩ => ⟨S65536x1024, .f32⟩
  | .hbm, ⟨53, _⟩ => ⟨S_, .f32⟩
  | .hbm, ⟨54, _⟩ => ⟨S65536, .f32⟩
  | .hbm, ⟨55, _⟩ => ⟨S65536x1, .f32⟩
  | .hbm, ⟨56, _⟩ => ⟨S65536x1024, .f32⟩
  | .hbm, ⟨57, _⟩ => ⟨S65536x1024, .f32⟩
  | .hbm, ⟨58, _⟩ => ⟨S65536x64, .f32⟩
  | .hbm, ⟨59, _⟩ => ⟨S32x2048x64, .f32⟩
  | .hbm, ⟨60, _⟩ => ⟨S32x2048x1024, .f32⟩
  | _, _ => ⟨S32x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]

class Facts₀ : Prop where
  shapeCasts_S32x2048x64_S65536x64 : S32x2048x64.ShapeCasts S65536x64
  reducesTo_S65536x64_S65536_d1 : S65536x64.ReducesTo [1] S65536
  h_S_ : 0 < S_.numel
  bcast_S65536_S65536x1_0 : S65536.BroadcastsInDim S65536x1 (![0] : Fin 1 → Fin S65536x1.rank)
  reducesTo_S1024x64_S1024_d1 : S1024x64.ReducesTo [1] S1024
  bcast_S1024_S1x1024_1 : S1024.BroadcastsInDim S1x1024 (![1] : Fin 1 → Fin S1x1024.rank)
  bcast_S65536x1_S65536x1024_0_1 : S65536x1.BroadcastsInDim S65536x1024 (![0, 1] : Fin 2 → Fin S65536x1024.rank)
  bcast_S1x1024_S65536x1024_0_1 : S1x1024.BroadcastsInDim S65536x1024 (![0, 1] : Fin 2 → Fin S65536x1024.rank)
  transposes_S1024x64_S64x1024_1_0 : S1024x64.Transposes [1, 0] S64x1024
  bcast_S_S65536x1024 : S_.BroadcastsInDim S65536x1024 (![] : Fin 0 → Fin S65536x1024.rank)
  reducesTo_S65536x1024_S65536_d1 : S65536x1024.ReducesTo [1] S65536
  bcast_S_S65536 : S_.BroadcastsInDim S65536 (![] : Fin 0 → Fin S65536.rank)
  shapeCasts_S65536x64_S32x2048x64 : S65536x64.ShapeCasts S32x2048x64
  shapeCasts_S65536x1024_S32x2048x1024 : S65536x1024.ShapeCasts S32x2048x1024
  dot_S65536x64_S64x1024_S65536x1024_1_0_0_1_n_n_wf : DotDims.WF S65536x64 S64x1024 S65536x1024 [1] [0] [0] [1] [] []
  dot_S65536x1024_S1024x64_S65536x64_1_0_0_1_n_n_wf : DotDims.WF S65536x1024 S1024x64 S65536x64 [1] [0] [0] [1] [] []

variable [Facts₀]

def dot_S65536x64_S64x1024_S65536x1024_1_0_0_1_n_n : DotDims S65536x64 S64x1024 S65536x1024 where
  lhsContracting := [1]
  rhsContracting := [0]
  lhsNonContracting := [0]
  rhsNonContracting := [1]
  lhsBatch := []
  rhsBatch := []
  wf := dot_S65536x64_S64x1024_S65536x1024_1_0_0_1_n_n_wf
def dot_S65536x1024_S1024x64_S65536x64_1_0_0_1_n_n : DotDims S65536x1024 S1024x64 S65536x64 where
  lhsContracting := [1]
  rhsContracting := [0]
  lhsNonContracting := [0]
  rhsNonContracting := [1]
  lhsBatch := []
  rhsBatch := []
  wf := dot_S65536x1024_S1024x64_S65536x64_1_0_0_1_n_n_wf

class Facts : Prop extends Facts₀ where

variable [Facts]
-- ==== Proof.LibRowOps.lean ====
/-
  Three readings at an entry (p, q) of a two-axis array, for the shapes a row-wise reduction meets.

  A vector of one value per row, kept as a column [a, 1] and repeated along the columns, reads at (p, q) its value
  for row p.  A vector of one value per column, kept as a row [1, b] and repeated along the rows, reads at (p, q) its
  value for column q.  And the sum over the second axis of an [a, n] array, read on the extended reals, is at row p
  the sum over d of the entries (p, d).
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.RowOps

open Idealize.ShloMosaic Idealize.ShloMosaic.ValueIdx

variable {α : Type}

/-- One value per row, kept as a column and repeated along `b` columns: at (p, q) it is the value of row `p`. -/
theorem column_repeated_apply {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v hc) hb (ix2 p q) = v (ix1 p) := by
  refine (broadcastTo_apply _ hb (ix2 p q) (ix2 p (0 : Fin 1)) fun ax => ?_).trans ?_
  · match ax with
    | ⟨0, _⟩ =>
      show p.val = if a = 1 then 0 else p.val
      split
      · have := p.isLt; omega
      · rfl
    | ⟨1, _⟩ =>
      show 0 = if (1 : ℕ) = 1 then 0 else q.val
      rw [if_pos rfl]
  · exact shapeCast_apply v hc _ _ (by
      rw [Shape.rowMajor_val_one, Shape.rowMajor_val_two]
      show p.val = p.val * 1 + 0
      omega)

/-- One value per column, kept as a row and repeated along `a` rows: at (p, q) it is the value of column `q`. -/
theorem row_repeated_apply {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ v hc) hb (ix2 p q) = v (ix1 q) :=
  (broadcastTo_1b_ab_apply _ hb p q).trans (shapeCast_a_1a_apply v hc 0 q)

/-- The sum over the second axis of an [a, n] array of extended reals: at row `p` the sum over `d` of the entries (p, d). -/
theorem sum_over_columns_apply {a n : ℕ} (src : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ d : Fin n, src (ix2 p d) :=
  (Ideal.multiReduction_add_single src 0x00000000#32 h hφ hacc (ix1 p)).trans
    (Finset.sum_congr rfl fun d _ => congrArg src (funext fun ax => Fin.ext (by
      match ax with
      | ⟨0, _⟩ => rfl
      | ⟨1, _⟩ => rfl)))

end Cert.RowOps

end
-- ==== Proof.LibRowMax.lean ====
/-
  The maximum over the second axis of an [a, n] array, read on the extended reals.

  A row-wise maximum that starts from -∞ (the pattern 0xFF800000) is, at row p, the fold of `max` from -∞ over the
  n entries (p, d) of the row, in any order: `max` is commutative and associative on the extended reals.
-/
import Idealize.ShloMosaic.Lib.ValueIdx
import Idealize.ShloMosaic.PureOps.Ideal.Laws

noncomputable section

namespace Cert.RowMax

open Idealize.ShloMosaic Idealize.ShloMosaic.ValueIdx

/-- The maximum over the second axis of an [a, n] array of extended reals, taken from -∞: at row `p` the fold of
    `max` from -∞ over the entries (p, d). -/
theorem max_over_columns_apply {a n : ℕ} (src : FVec Ideal ⟨2, ![a, n]⟩ .f32)
    (h : (⟨2, ![a, n]⟩ : Shape).Reduces [1] ⟨1, ![a]⟩) (hφ : FKind.Formats .f32)
    (hacc : (0xFF800000#32 : BitVec 32) = 0xFF800000#32) (p : Fin a) :
    multiReduction .maximumf [1] ⟨1, ![a]⟩ src 0xFF800000#32 h hφ hacc (ix1 p)
      = (Finset.univ : Finset (Fin n)).fold max (Ideal.ofBits .f32 0xFF800000#32) (fun d => src (ix2 p d)) :=
  (Ideal.multiReduction_maximumf_single src 0xFF800000#32 h hφ hacc (ix1 p)).trans
    (Finset.fold_congr fun d _ => congrArg src (funext fun ax => Fin.ext (by
      match ax with
      | ⟨0, _⟩ => rfl
      | ⟨1, _⟩ => rfl)))

end Cert.RowMax

end
-- ==== Proof.LibSoftmaxRows.lean ====
/-
  The softmax of the rows of a two-axis array, read at an entry on the extended reals.

  For a row zs of n extended reals: its maximum started from −∞ (the word 0xFF800000) and compared with −∞ once more
  (`rowMax`), the shifted exponentials exp(zs q − max) (`expo`), and the softmax weights, each shifted exponential over
  the sum of them all (`weight`).  The array form computes them for every row of an [a, n] array at once: the row
  maxima by a reduction over the second axis from −∞, compared with a repeated −∞, kept as a column [a, 1] and
  repeated along the row; the shifted exponentials; their row sums from the zero word, kept as a column and repeated
  likewise; and the quotient.  At the entry (p, q) that array is the softmax weight of entry q of row p
  (`softmax_rows_apply`), and the repeated row maxima read the row maximum of row p (`row_max_repeated_apply`).  Also
  here: a single value kept as a [1, 1] array and repeated over an [a, b] array reads that value at every entry.
  The extents are variables.  (It imports the row-sum, column-repeat and row-maximum readings of LibRowOps and LibRowMax:
  the three files go together.)
-/
import proofs.«156668_j41953240547407_2_alg».proof.Proof.LibRowOps
import proofs.«156668_j41953240547407_2_alg».proof.Proof.LibRowMax
import Idealize.ShloMosaic.PureOps.Ideal
import Idealize.ShloMosaic.Lib.Pipeline.Value
import Idealize.ShloMosaic.Lib.ValueIdx
import Idealize.ShloMosaic.PureOps.Ideal.Laws

noncomputable section

open scoped BigOperators

namespace Cert.SoftmaxRows

open Idealize.ShloMosaic Idealize.ShloMosaic.ValueIdx

/-- The largest entry of a row, started from −∞ and compared with −∞ once more. -/
def rowMax {n : ℕ} (zs : Fin n → EReal) : EReal :=
  max (Ideal.ofBits .f32 0xFF800000#32)
    ((Finset.univ : Finset (Fin n)).fold max (Ideal.ofBits .f32 0xFF800000#32) zs)

/-- The shifted exponential of entry q of a row. -/
def expo {n : ℕ} (zs : Fin n → EReal) (q : Fin n) : EReal := Ideal.exp (zs q - rowMax zs)

/-- The softmax weight of entry q of a row. -/
def weight {n : ℕ} (zs : Fin n → EReal) (q : Fin n) : EReal :=
  Ideal.div (expo zs q) (∑ q' : Fin n, expo zs q')

/-- A single value, kept as a [1, 1] array and repeated over an [a, b] array: at every entry it is that value. -/
theorem single_repeated_apply {α : Type} {a b : ℕ} (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- The maximum of each row taken from -∞, compared once more with -∞, kept as a column and repeated along the row:
    at (p, q) it is the row maximum of row p. -/
theorem row_max_repeated_apply {a n : ℕ} (T : FVec Ideal ⟨2, ![a, n]⟩ .f32)
    (h : (⟨2, ![a, n]⟩ : Shape).Reduces [1] ⟨1, ![a]⟩) (hφ : FKind.Formats .f32)
    (hacc : (0xFF800000#32 : BitVec 32) = 0xFF800000#32)
    (hc : (⟨1, ![a]⟩ : Shape).ShapeCasts ⟨2, ![a, 1]⟩) (hb : (⟨2, ![a, 1]⟩ : Shape).Broadcasts ⟨2, ![a, n]⟩)
    (p : Fin a) (q : Fin n) :
    broadcastTo ⟨2, ![a, n]⟩
      (shapeCast ⟨2, ![a, 1]⟩
        (maximumf (F := Ideal) (broadcast ⟨1, ![a]⟩ (Ideal.ofBits .f32 0xFF800000#32))
          (multiReduction .maximumf [1] ⟨1, ![a]⟩ T 0xFF800000#32 h hφ hacc)) hc) hb (ix2 p q)
      = rowMax (fun d : Fin n => T (ix2 p d)) :=
  (Cert.RowOps.column_repeated_apply _ hc hb p q).trans
    (congrArg (max (Ideal.ofBits .f32 0xFF800000#32)) (Cert.RowMax.max_over_columns_apply T h hφ hacc p))

/-- The softmax of each row: the shifted exponentials over their row sum, the shift being the row maximum repeated along
    the row and the row sum likewise kept as a column and repeated.  At (p, q) it is the weight of entry q of row p. -/
theorem softmax_rows_apply {a n : ℕ} (T : FVec Ideal ⟨2, ![a, n]⟩ .f32)
    (h : (⟨2, ![a, n]⟩ : Shape).Reduces [1] ⟨1, ![a]⟩) (hφ : FKind.Formats .f32)
    (haccm : (0xFF800000#32 : BitVec 32) = 0xFF800000#32) (hacc0 : (0x00000000#32 : BitVec 32) = 0x00000000#32)
    (hc : (⟨1, ![a]⟩ : Shape).ShapeCasts ⟨2, ![a, 1]⟩) (hb : (⟨2, ![a, 1]⟩ : Shape).Broadcasts ⟨2, ![a, n]⟩)
    (p : Fin a) (q : Fin n) :
    divf (F := Ideal)
      (exp (subf T (broadcastTo ⟨2, ![a, n]⟩
        (shapeCast ⟨2, ![a, 1]⟩
          (maximumf (F := Ideal) (broadcast ⟨1, ![a]⟩ (Ideal.ofBits .f32 0xFF800000#32))
            (multiReduction .maximumf [1] ⟨1, ![a]⟩ T 0xFF800000#32 h hφ haccm)) hc) hb)))
      (broadcastTo ⟨2, ![a, n]⟩
        (shapeCast ⟨2, ![a, 1]⟩
          (multiReduction .add [1] ⟨1, ![a]⟩
            (exp (subf T (broadcastTo ⟨2, ![a, n]⟩
              (shapeCast ⟨2, ![a, 1]⟩
                (maximumf (F := Ideal) (broadcast ⟨1, ![a]⟩ (Ideal.ofBits .f32 0xFF800000#32))
                  (multiReduction .maximumf [1] ⟨1, ![a]⟩ T 0xFF800000#32 h hφ haccm)) hc) hb)))
            0x00000000#32 h hφ hacc0) hc) hb) (ix2 p q)
      = weight (fun d : Fin n => T (ix2 p d)) q := by
  have hE : ∀ d : Fin n,
      exp (F := Ideal) (subf T (broadcastTo ⟨2, ![a, n]⟩
        (shapeCast ⟨2, ![a, 1]⟩
          (maximumf (F := Ideal) (broadcast ⟨1, ![a]⟩ (Ideal.ofBits .f32 0xFF800000#32))
            (multiReduction .maximumf [1] ⟨1, ![a]⟩ T 0xFF800000#32 h hφ haccm)) hc) hb)) (ix2 p d)
        = expo (fun d' : Fin n => T (ix2 p d')) d := fun d =>
    congrArg (fun m => Ideal.exp (T (ix2 p d) - m)) (row_max_repeated_apply T h hφ haccm hc hb p d)
  exact congrArg₂ Ideal.div (hE q)
    ((Cert.RowOps.column_repeated_apply _ hc hb p q).trans
      ((Cert.RowOps.sum_over_columns_apply _ h hφ hacc0 p).trans (Finset.sum_congr rfl fun d _ => hE d)))

end Cert.SoftmaxRows

end
-- ==== Proof.Spec.lean ====
/-
  The vector quantizer, one point at a time, on the extended reals.

  A point z (64 coordinates) is scored against each code b of the codebook by the negated squared distance
  |z|² + |b|² − 2⟨z, b⟩ times a precision; a Gumbel perturbation computed from a uniform sample is added, the sum is
  divided by the temperature 1/2, a softmax over the codes gives the weights, and the quantized point is the
  weighted sum of the codes.  Every step is the exact operation on the extended reals; the four float literals (2,
  1e-10 rounded to f32, 1/2, −∞) are kept as the words both programs print, so they are never evaluated.

  The array forms at the end read the same functions off whole arrays: the points are the 65536 rows of a
  [65536, 64] array, the codes the 1024 rows of a [1024, 64] array, the uniform samples a [65536, 1024] array.
-/
import proofs.«156668_j41953240547407_2_alg».proof.Proof.LibSoftmaxRows
import Idealize.ShloMosaic.PureOps.Ideal
import Idealize.ShloMosaic.Lib.ValueIdx

noncomputable section

open scoped BigOperators

namespace Cert.Quantizer

open Idealize.ShloMosaic Idealize.ShloMosaic.ValueIdx

/-- The logit of a point against a code from |z|², |b|², ⟨z, b⟩ and the precision: −((|z|² + |b|²) − 2⟨z, b⟩) · precision. -/
def logitOf (zz bb zb pr : EReal) : EReal :=
  (-((zz + bb) - Ideal.ofBits .f32 0x40000000#32 * zb)) * pr

/-- The Gumbel perturbation of a uniform sample u: −log(−log(u + ε) + ε). -/
def gumbel (u : EReal) : EReal :=
  -(Ideal.log (-(Ideal.log (u + Ideal.ofBits .f32 0x2EDBE6FF#32)) + Ideal.ofBits .f32 0x2EDBE6FF#32))

/-- The perturbed logit divided by the temperature 1/2. -/
def tempered (lg u : EReal) : EReal :=
  Ideal.div (lg + gumbel u) (Ideal.ofBits .f32 0x3F000000#32)

/- The row maximum `rowMax`, the shifted exponentials `expo` and the softmax weights `weight` of a row are those of
   LibSoftmaxRows. -/
export Cert.SoftmaxRows (rowMax expo weight)

/-- The logits of every point against every code: entry (r, q) from row r of the points and row q of the codes. -/
def logitsArr (zf : (⟨2, ![65536, 64]⟩ : Shape).Idx → EReal) (book : (⟨2, ![1024, 64]⟩ : Shape).Idx → EReal) (pr : EReal) :
    (⟨2, ![65536, 1024]⟩ : Shape).Idx → EReal :=
  fun i => logitOf (∑ k : Fin 64, zf (ix2 (i 0) k) * zf (ix2 (i 0) k))
    (∑ k : Fin 64, book (ix2 (i 1) k) * book (ix2 (i 1) k))
    (∑ k : Fin 64, zf (ix2 (i 0) k) * book (ix2 (i 1) k)) pr

/-- The tempered, perturbed logits of point r: one entry per code. -/
def temperedRow (zf : (⟨2, ![65536, 64]⟩ : Shape).Idx → EReal) (book : (⟨2, ![1024, 64]⟩ : Shape).Idx → EReal) (pr : EReal)
    (u : (⟨2, ![65536, 1024]⟩ : Shape).Idx → EReal) (r : Fin 65536) : Fin 1024 → EReal :=
  fun q => tempered (logitsArr zf book pr (ix2 r q)) (u (ix2 r q))

/-- The quantized points: entry (r, d) is the softmax-weighted sum over the codes q of coordinate d of code q. -/
def quantArr (zf : (⟨2, ![65536, 64]⟩ : Shape).Idx → EReal) (book : (⟨2, ![1024, 64]⟩ : Shape).Idx → EReal) (pr : EReal)
    (u : (⟨2, ![65536, 1024]⟩ : Shape).Idx → EReal) : (⟨2, ![65536, 64]⟩ : Shape).Idx → EReal :=
  fun i => ∑ q : Fin 1024, weight (temperedRow zf book pr u (i 0)) q * book (ix2 q (i 1))

end Cert.Quantizer

end
-- ==== Proof.LibKeepdims.lean ====
/-
  Readings at an entry (p, q) for the shapes a mean or a length "per row, kept as a column" goes through, in the
  vector form (a cast [a] → [a, 1], a repeat [a, 1] → [a, b]) and in the host form (a broadcast-in-dimension [a] → [a, 1]
  along axis 0, [a, 1] → [a, b] along both axes), and the host's sum over the second axis of an [a, n] array read on the
  extended reals: the initial value plus the sum over d of the entries (p, d).
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.Keepdims

open Idealize.ShloMosaic Idealize.ShloMosaic.ValueIdx

variable {α : Type}

/-- A column [a, 1] repeated along `b` columns reads, at (p, q), the column's entry of row `p`. -/
theorem column_repeat_apply {a b : ℕ} (u : (⟨2, ![a, 1]⟩ : Shape).Idx → α)
    (hb : (⟨2, ![a, 1]⟩ : Shape).Broadcasts ⟨2, ![a, b]⟩) (p : Fin a) (q : Fin b) :
    broadcastTo ⟨2, ![a, b]⟩ u hb (ix2 p q) = u (ix2 p (0 : Fin 1)) := by
  refine broadcastTo_apply _ hb (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-- A vector [a] kept as a column [a, 1] reads, at (p, 0), its entry `p`. -/
theorem column_cast_apply {a : ℕ} (v : (⟨1, ![a]⟩ : Shape).Idx → α)
    (hc : (⟨1, ![a]⟩ : Shape).ShapeCasts ⟨2, ![a, 1]⟩) (p : Fin a) :
    shapeCast ⟨2, ![a, 1]⟩ v hc (ix2 p (0 : Fin 1)) = v (ix1 p) :=
  shapeCast_apply v hc _ _ (by
    rw [Shape.rowMajor_val_one, Shape.rowMajor_val_two]
    show p.val = p.val * 1 + 0
    omega)

/-- The host's broadcast of a vector [a] to a column [a, 1] along axis 0 reads, at (p, 0), its entry `p`. -/
theorem host_column_apply {a : ℕ} (v : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h v (ix2 p z) = v (ix1 p) := by
  refine broadcastInDim_apply _ h v (ix2 p z) (ix1 p) fun ax => ?_
  match ax with
  | ⟨0, _⟩ =>
    show p.val = if a = 1 then 0 else p.val
    split
    · have := p.isLt; omega
    · rfl

/-- The host's broadcast of a column [a, 1] to [a, b] reads, at (p, q), the column's entry of row `p`. -/
theorem host_column_repeat_apply {a b : ℕ} (u : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h u (ix2 p q) = u (ix2 p (0 : Fin 1)) := by
  refine broadcastInDim_apply _ h u (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-- The host's sum over the second axis of an [a, n] array of extended reals: at row `p` the initial value plus the sum
    over `d` of the entries (p, d). -/
theorem host_sum_over_columns_apply {a n : ℕ} (x : FVec Ideal ⟨2, ![a, n]⟩ .f32) (init : FVec Ideal ⟨0, ![]⟩ .f32)
    (h : (⟨2, ![a, n]⟩ : Shape).ReducesTo [1] ⟨1, ![a]⟩) (h' : (⟨2, ![a, n]⟩ : Shape).Reduces [1] ⟨1, ![a]⟩)
    (hu : 0 < (⟨0, ![]⟩ : Shape).numel) (p : Fin a) :
    Host.reduceAdd x init h hu (ix1 p) = init ix0 + ∑ d : Fin n, x (ix2 p d) := by
  rw [hostReduceAdd_apply, Ideal.hostReduceAdd_single h h', eq_ix0 (Shape.Idx.first hu)]
  refine congrArg (_ + ·) (Finset.sum_congr rfl fun d _ => ?_)
  exact congrArg x (funext fun ax => Fin.ext (by
    match ax with
    | ⟨0, _⟩ => rfl
    | ⟨1, _⟩ => rfl))

end Cert.Keepdims

end
-- ==== Proof.Entry.lean ====
import proofs.«156668_j41953240547407_2_alg».proof.Proof.Gen.KernelIdeal.Frame
import proofs.«156668_j41953240547407_2_alg».proof.Proof.LibKeepdims
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

/-
  What the 64 blocks of the grid find in the kernel's operand arrays, each as a function of the program's arguments.

  Before the blocks run, the host lines lay out the operands: the points re-laid as the 65536 rows of a [65536, 64]
  array; the codebook (its change of float format is the identity on the extended reals); the transposed codebook, whose
  entry (k, q) is coordinate k of code q; the codes' squared lengths as a row [1, 1024], entry (0, q) the sum over k of
  the squares of code q's coordinates (the host's sum starts from the zero word); and the precision
  1/2 ÷ max(exp(log-parameter), ε) as a [1, 1] array.
-/

namespace Cert.Quantizer.Entry

open Cert.KernelIdeal Cert.KernelIdeal.Gen
open Idealize.ShloMosaic Idealize.ShloMosaic.TcCoe Idealize.ShloMosaic.ValueIdx Idealize.SL.Sem Idealize.ShloMosaic.StableHlo

/-- The precision as a function of the log-parameter: 1/2 ÷ max(exp x, ε), a rank-0 array. -/
abbrev precArr (x2 : S_.Idx → EReal) : S_.Idx → EReal :=
  Host.divf (F := Ideal) (constant (F := Ideal) S_ .f32 0x3F000000#32)
    (maximumf (F := Ideal) (Host.exp (F := Ideal) (φ := .f32) x2) (constant (F := Ideal) S_ .f32 0x2EDBE6FF#32))

variable (m : (ℓ : Loc nD τ sig) → Buf (Elt Ideal) ℓ)

/-- The four arguments on core `c`, as arrays of extended reals. -/
abbrev points (c : Dev nD) : S32x2048x64.Idx → EReal := m ((c : Thread nD τ).loc main_arg0)
abbrev codes (c : Dev nD) : S1024x64.Idx → EReal := m ((c : Thread nD τ).loc main_arg1)
abbrev logParam (c : Dev nD) : S_.Idx → EReal := m ((c : Thread nD τ).loc main_arg2)
abbrev samples (c : Dev nD) : S65536x1024.Idx → EReal := m ((c : Thread nD τ).loc main_arg3)

/-- The points as the blocks find them: the argument re-laid as [65536, 64]. -/
theorem points_entry (c : Dev nD) :
    (V m c main_v0 : S65536x64.Idx → EReal)
      = shapeCast S65536x64 (points m c) shapeCasts_S32x2048x64_S65536x64 := by
  show StableHlo.after hostOps0 (fun b => m (c, b)) (Proc.devRef .tc main_v0) = _
  after_results
  all_goals rfl

/-- The codebook as the blocks find it is the argument: changing the float format moves nothing. -/
theorem codes_entry (c : Dev nD) (j : S1024x64.Idx) :
    (V m c main_v5 : S1024x64.Idx → EReal) j = (codes m c) j := by
  have e : (V m c main_v5 : S1024x64.Idx → EReal)
      = truncf (F := Ideal) .bf16 (codes m c) bitsLt_bf16_f32 := by
    show StableHlo.after hostOps0 (fun b => m (c, b)) (Proc.devRef .tc main_v5) = _
    after_results
    all_goals rfl
  rw [e]
  rfl

/-- The transposed codebook: entry (k, q) is coordinate k of code q. -/
theorem codesT_entry (c : Dev nD) (k : Fin 64) (q : Fin 1024) :
    (V m c main_v7 : S64x1024.Idx → EReal) (ix2 k q) = (codes m c) (ix2 q k) := by
  have e : (V m c main_v7 : S64x1024.Idx → EReal)
      = truncf (F := Ideal) .bf16 (transpose S64x1024 [1, 0] (codes m c)
          transposes_S1024x64_S64x1024_1_0) bitsLt_bf16_f32 := by
    show StableHlo.after hostOps0 (fun b => m (c, b)) (Proc.devRef .tc main_v7) = _
    after_results
    all_goals rfl
  rw [e]
  exact transpose_ix2_apply (codes m c) transposes_S1024x64_S64x1024_1_0 k q

/-- The codes' squared lengths: entry (0, q) is the sum over k of the squares of code q's coordinates. -/
theorem codesSq_entry (c : Dev nD) (z : Fin 1) (q : Fin 1024) :
    (V m c main_v10 : S1x1024.Idx → EReal) (ix2 z q)
      = ∑ k : Fin 64, (codes m c) (ix2 q k)
          * (codes m c) (ix2 q k) := by
  have e : (V m c main_v10 : S1x1024.Idx → EReal)
      = shapeCast S1x1024 (Host.reduceAdd (F := Ideal) (mulf (F := Ideal) (codes m c) (codes m c))
          (constant (F := Ideal) S_ .f32 0x00000000#32) reducesTo_S1024x64_S1024_d1 h_S_) shapeCasts_S1024_S1x1024 := by
    show StableHlo.after hostOps0 (fun b => m (c, b)) (Proc.devRef .tc main_v10) = _
    after_results
    all_goals rfl
  rw [e]
  refine (shapeCast_a_1a_apply _ shapeCasts_S1024_S1x1024 z q).trans ?_
  refine (Cert.Keepdims.host_sum_over_columns_apply _ _ reducesTo_S1024x64_S1024_d1 reduces_S1024x64_S1024 h_S_ q).trans ?_
  show Ideal.ofBits .f32 0x00000000#32 + _ = _
  rw [Ideal.ofBits_zero_f32, zero_add]
  rfl

/-- The precision as the blocks find it: the one entry of the [1, 1] array is the precision. -/
theorem prec_entry (c : Dev nD) (z z' : Fin 1) :
    (V m c main_v4 : S1x1.Idx → EReal) (ix2 z z') = precArr (logParam m c) ix0 := by
  have e : (V m c main_v4 : S1x1.Idx → EReal)
      = shapeCast S1x1 (precArr (logParam m c)) shapeCasts_S_S1x1 := by
    show StableHlo.after hostOps0 (fun b => m (c, b)) (Proc.devRef .tc main_v4) = _
    after_results
    all_goals rfl
  rw [e]
  refine shapeCast_apply _ shapeCasts_S_S1x1 _ ix0 ?_
  rw [Shape.rowMajor_val_two]
  have h0 : ((S_ : Shape).rowMajor ix0).val < 1 := ((S_ : Shape).rowMajor ix0).isLt
  have hz : z.val = 0 := by omega
  have hz' : z'.val = 0 := by omega
  show _ = z.val * 1 + z'.val
  omega

/-- The precision the program returns, which no block touches. -/
theorem prec_kept (c : Dev nD) :
    (V m c main_v3 : S_.Idx → EReal) = precArr (logParam m c) := by
  show StableHlo.after hostOps0 (fun b => m (c, b)) (Proc.devRef .tc main_v3) = _
  after_results
  all_goals rfl

end Cert.Quantizer.Entry

end
-- ==== Proof.Blocks.lean ====
import proofs.«156668_j41953240547407_2_alg».proof.Proof.Gen.KernelIdeal.Frame
import proofs.«156668_j41953240547407_2_alg».proof.Proof.Spec
import proofs.«156668_j41953240547407_2_alg».proof.Proof.Entry
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

/-
  From the 64 blocks to the two whole arrays.

  Grid point t works on rows 1024 t … 1024 t + 1023 of the points and of the uniform samples, against the whole
  codebook, and writes back rows 1024 t … 1024 t + 1023 of the logits and of the quantized points.  A row of either
  output depends on the same row of the inputs only, so what point t writes back is block t of one whole-array
  function, and the 64 blocks tile the 65536 rows.
-/

namespace Cert.Quantizer.Blocks

open Cert.KernelIdeal Cert.KernelIdeal.Gen Cert.Quantizer Cert.Quantizer.Entry
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The block index of every window at every grid point: the row-blocked windows (points, samples, both outputs) are at
    block (t, 0), the resident ones (codebook, its transpose, the squared lengths, the precision) at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row y of point t's block of the points is row 1024 t + y of the points. -/
theorem points_block (c : Dev nD) (t : Fin cfg0.N) (y : Fin 1024) (k : Fin 64) (r : Fin 65536) (hr : r.val = t.val * 1024 + y.val) :
    (iblk m c 0 t : Vec Ideal S1024x64 .f32) (ix2 y k) = (V m c main_v0 : S65536x64.Idx → EReal) (ix2 r k) := by
  obtain ⟨e0, e1, -⟩ := idx_facts t
  show (V m c main_v0 : S65536x64.Idx → EReal) (((cfg0.win 0).blk t).view.emb (ix2 y k)) = _
  refine congrArg (V m c main_v0 : S65536x64.Idx → EReal) (funext fun a => Fin.ext ?_)
  match a with
  | ⟨0, _⟩ => show win0_0.index t (0 : Fin 2) * 1024 + 1 * y.val = r.val; rw [e0, hr]; omega
  | ⟨1, _⟩ => show win0_0.index t (1 : Fin 2) * 64 + 1 * k.val = k.val; rw [e1]; omega

/-- Row y of point t's block of the uniform samples is row 1024 t + y of the samples. -/
theorem samples_block (c : Dev nD) (t : Fin cfg0.N) (y : Fin 1024) (q : Fin 1024) (r : Fin 65536) (hr : r.val = t.val * 1024 + y.val) :
    (iblk m c 4 t : Vec Ideal S1024x1024 .f32) (ix2 y q) = samples m c (ix2 r q) := by
  obtain ⟨-, -, -, -, -, -, -, -, e0, e1, -⟩ := idx_facts t
  show (V m c main_arg3 : S65536x1024.Idx → EReal) (((cfg0.win 4).blk t).view.emb (ix2 y q)) = _
  rw [V_main_arg3]
  refine congrArg (samples m c) (funext fun a => Fin.ext ?_)
  match a with
  | ⟨0, _⟩ => show win0_4.index t (0 : Fin 2) * 1024 + 1 * y.val = r.val; rw [e0, hr]; omega
  | ⟨1, _⟩ => show win0_4.index t (1 : Fin 2) * 1024 + 1 * q.val = q.val; rw [e1]; omega

/-- Every point's block of the codebook is the codebook. -/
theorem codes_block (c : Dev nD) (t : Fin cfg0.N) (q : Fin 1024) (d : Fin 64) :
    (iblk m c 1 t : Vec Ideal S1024x64 .bf16) (ix2 q d) = codes m c (ix2 q d) := by
  obtain ⟨-, -, e0, e1, -⟩ := idx_facts t
  show (V m c main_v5 : S1024x64.Idx → EReal) (((cfg0.win 1).blk t).view.emb (ix2 q d)) = _
  refine (congrArg (V m c main_v5 : S1024x64.Idx → EReal) (funext fun a => Fin.ext ?_)).trans (codes_entry m c (ix2 q d))
  match a with
  | ⟨0, _⟩ => show win0_1.index t (0 : Fin 2) * 1024 + 1 * q.val = q.val; rw [e0]; omega
  | ⟨1, _⟩ => show win0_1.index t (1 : Fin 2) * 64 + 1 * d.val = d.val; rw [e1]; omega

/-- Every point's block of the transposed codebook: entry (k, q) is coordinate k of code q. -/
theorem codesT_block (c : Dev nD) (t : Fin cfg0.N) (k : Fin 64) (q : Fin 1024) :
    (iblk m c 2 t : Vec Ideal S64x1024 .bf16) (ix2 k q) = codes m c (ix2 q k) := by
  obtain ⟨-, -, -, -, e0, e1, -⟩ := idx_facts t
  show (V m c main_v7 : S64x1024.Idx → EReal) (((cfg0.win 2).blk t).view.emb (ix2 k q)) = _
  refine (congrArg (V m c main_v7 : S64x1024.Idx → EReal) (funext fun a => Fin.ext ?_)).trans (codesT_entry m c k q)
  match a with
  | ⟨0, _⟩ => show win0_2.index t (0 : Fin 2) * 64 + 1 * k.val = k.val; rw [e0]; omega
  | ⟨1, _⟩ => show win0_2.index t (1 : Fin 2) * 1024 + 1 * q.val = q.val; rw [e1]; omega

/-- Every point's block of the squared lengths: entry (0, q) is the squared length of code q. -/
theorem codesSq_block (c : Dev nD) (t : Fin cfg0.N) (z : Fin 1) (q : Fin 1024) :
    (iblk m c 3 t : Vec Ideal S1x1024 .f32) (ix2 z q) = ∑ k : Fin 64, codes m c (ix2 q k) * codes m c (ix2 q k) := by
  obtain ⟨-, -, -, -, -, -, e0, e1, -⟩ := idx_facts t
  show (V m c main_v10 : S1x1024.Idx → EReal) (((cfg0.win 3).blk t).view.emb (ix2 z q)) = _
  refine (congrArg (V m c main_v10 : S1x1024.Idx → EReal) (funext fun a => Fin.ext ?_)).trans (codesSq_entry m c z q)
  match a with
  | ⟨0, _⟩ => show win0_3.index t (0 : Fin 2) * 1 + 1 * z.val = z.val; rw [e0]; omega
  | ⟨1, _⟩ => show win0_3.index t (1 : Fin 2) * 1024 + 1 * q.val = q.val; rw [e1]; omega

/-- Every point's block of the precision is its one entry. -/
theorem prec_block (c : Dev nD) (t : Fin cfg0.N) (z z' : Fin 1) :
    (iblk m c 5 t : Vec Ideal S1x1 .f32) (ix2 z z') = precArr (logParam m c) ix0 := by
  obtain ⟨-, -, -, -, -, -, -, -, -, -, e0, e1, -⟩ := idx_facts t
  show (V m c main_v4 : S1x1.Idx → EReal) (((cfg0.win 5).blk t).view.emb (ix2 z z')) = _
  refine (congrArg (V m c main_v4 : S1x1.Idx → EReal) (funext fun a => Fin.ext ?_)).trans (prec_entry m c z z')
  match a with
  | ⟨0, _⟩ => show win0_5.index t (0 : Fin 2) * 1 + 1 * z.val = z.val; rw [e0]; omega
  | ⟨1, _⟩ => show win0_5.index t (1 : Fin 2) * 1 + 1 * z'.val = z'.val; rw [e1]; omega

end Cert.Quantizer.Blocks

end
-- ==== Proof.LibPlainMatmul.lean ====
/-
  A plain matrix product read at an entry.

  For the dimension numbers of an ordinary product — an [a, n] array times an [n, b] array, contracting the second
  axis of the left with the first axis of the right, no batch axis — the product accumulated onto the zero array is, on
  the extended reals, at (p, q) the sum over k of left (p, k) · right (k, q).  The extents are variables, so the
  reading does not change with a kernel's tiling.
-/
import Idealize.ShloMosaic.Lib.ValueIdx
import Idealize.ShloMosaic.PureOps.Ideal.Laws

noncomputable section

open scoped BigOperators

namespace Cert.PlainMatmul

open Idealize.ShloMosaic Idealize.ShloMosaic.ValueIdx

/-- The dimension numbers of an ordinary [a, n] × [n, b] product, over any witness of their well-formedness. -/
abbrev dims {a n b : ℕ}
    (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ :=
  ⟨[1], [0], [0], [1], [], [], wf⟩

/-- An ordinary product onto the zero array: at (p, q) the sum over k of left (p, k) · right (k, q). -/
theorem zero_acc_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    FloatOps.matmul (dims wf) prec L R (constant ⟨2, ![a, b]⟩ .f32 0x00000000#32) (ix2 p q)
      = ∑ k : Fin n, L (ix2 p k) * R (ix2 k q) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 k q :=
    funext fun ax => Fin.ext (by
      match ax with
      | ⟨0, _⟩ => exact ((dims wf).rhsIdx_val_of_single rfl _ _).trans hk
      | ⟨1, _⟩ => rfl)
  rw [el, er]

end Cert.PlainMatmul

end
-- ==== Proof.PayLogits.lean ====
/-
  The kernel body's logits, read at an entry.

  For a block of points (the rows of an [1024, 64] array) and the codes given transposed ([64, 1024]) with their
  squared lengths ([1, 1024]) and a precision ([1, 1]), the body forms |z|² by a sum over the 64 coordinates kept as a
  column and repeated along the codes, adds the codes' squared lengths repeated along the points, subtracts twice the
  matrix product of the points with the transposed codes, negates by subtracting from zero, and multiplies by the
  precision repeated over the whole array.  At the entry (y, q) this is the logit of point y against code q from
  |z|², |b|², ⟨z, b⟩ and the precision.
-/
import proofs.«156668_j41953240547407_2_alg».proof.Proof.Spec
import proofs.«156668_j41953240547407_2_alg».proof.Proof.Gen.KernelIdeal.Skeleton
import proofs.«156668_j41953240547407_2_alg».proof.Proof.LibSoftmaxRows
import proofs.«156668_j41953240547407_2_alg».proof.Proof.LibRowOps
import proofs.«156668_j41953240547407_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Quantizer.Pay

open Idealize.ShloMosaic Idealize.ShloMosaic.ValueIdx Cert.KernelIdeal Cert.KernelIdeal.Gen Cert.SoftmaxRows

/-- The body's logits at the entry (y, q): the logit of point y against code q. -/
theorem logits_block_apply (x0 : Vec Ideal S1024x64 .f32) (x2 : Vec Ideal S64x1024 .bf16) (x3 : Vec Ideal S1x1024 .f32)
    (x5 : Vec Ideal S1x1 .f32) (y q : Fin 1024) :
    k0_pay3 (F := Ideal) x0 x2 x3 x5 (ix2 y q)
      = logitOf (∑ k : Fin 64, x0 (ix2 y k) * x0 (ix2 y k)) (x3 (ix2 (0 : Fin 1) q))
          (∑ k : Fin 64, x0 (ix2 y k) * x2 (ix2 k q)) (x5 (ix2 (0 : Fin 1) (0 : Fin 1))) := by
  -- |z|²: the sum over the coordinates, kept as a column and repeated along the codes
  have hzz : broadcastTo S1024x1024
      (shapeCast S1024x1
        (multiReduction (F := Ideal) .add [1] S1024 (mulf x0 x0) 0x00000000#32 reduces_S1024x64_S1024 (.inl rfl) rfl)
        shapeCasts_S1024_S1024x1)
      broadcasts_S1024x1_S1024x1024 (ix2 y q) = ∑ k : Fin 64, x0 (ix2 y k) * x0 (ix2 y k) :=
    (Cert.RowOps.column_repeated_apply _ shapeCasts_S1024_S1024x1 broadcasts_S1024x1_S1024x1024 y q).trans
      (Cert.RowOps.sum_over_columns_apply (mulf x0 x0) reduces_S1024x64_S1024 (.inl rfl) rfl y)
  -- |b|²: the codes' squared lengths, repeated along the points
  have hbb : broadcastTo S1024x1024 x3 broadcasts_S1x1024_S1024x1024 (ix2 y q) = x3 (ix2 (0 : Fin 1) q) :=
    broadcastTo_1b_ab_apply x3 broadcasts_S1x1024_S1024x1024 y q
  -- ⟨z, b⟩: the product of the points with the transposed codes
  have hzb : matmul (F := Ideal) (φ₂ := .bf16) dot_S1024x64_S64x1024_S1024x1024_1_0_0_1_n_n none (truncf .bf16 x0 bitsLt_bf16_f32) x2
      (constant S1024x1024 .f32 0x00000000#32) (ix2 y q) = ∑ k : Fin 64, x0 (ix2 y k) * x2 (ix2 k q) :=
    Cert.PlainMatmul.zero_acc_apply (φ₂ := .bf16) Facts₀.dot_S1024x64_S64x1024_S1024x1024_1_0_0_1_n_n_wf none
      (truncf .bf16 x0 bitsLt_bf16_f32) x2 y q
  -- the precision, repeated over the whole array
  have hpr : broadcastTo S1024x1024 x5 broadcasts_S1x1_S1024x1024 (ix2 y q) = x5 (ix2 (0 : Fin 1) (0 : Fin 1)) :=
    single_repeated_apply x5 broadcasts_S1x1_S1024x1024 y q
  unfold k0_pay3 logitOf
  simp only [shapeCast_self]
  show (Ideal.ofBits .f32 0x00000000#32 - ((_ + _) - Ideal.ofBits .f32 0x40000000#32 * _)) * _ = _
  rw [hzz, hbb, hzb, hpr, Ideal.ofBits_zero_f32, zero_sub]

end Cert.Quantizer.Pay

end
-- ==== Proof.Cover.lean ====
/-
  The 64 points of the kernel's grid write back row blocks that tile the rows of both output arrays.

  Point t writes rows 1024 t, …, 1024 t + 1023, over all the columns, of the [65536, 1024] array and of the
  [65536, 64] array.  So row r of either array lies in the block of point r / 1024, and every index of either array is
  in the block some point writes back.
-/
import proofs.«156668_j41953240547407_2_alg».proof.Proof.Gen.KernelIdeal.Frame
import Idealize.ShloMosaic.Lib.Pipeline.Value

noncomputable section

namespace Cert.Quantizer.Cover

open Cert.KernelIdeal Cert.KernelIdeal.Gen Idealize.ShloMosaic Idealize.ShloMosaic.TcCoe Idealize.SL.Sem

/-! ## The [65536, 1024] output -/

/-- The block index of point t on the [65536, 1024] output is (t, 0): decided over the grid. -/
theorem idx6 : ∀ t : Fin cfg0.N, win0_6.index t (0 : Fin 2) = t.val ∧ win0_6.index t (1 : Fin 2) = 0 :=
  (by decide +kernel : ∀ t : Fin grid0.N, _)

/-- An index of the array is in point t's block iff each coordinate is in the block's range on its axis. -/
theorem mem_blk6 (t : Fin cfg0.N) (i : S65536x1024.Idx) :
    i ∈ ((cfg0.win 6).blk t).view.set ↔ ∀ a : Fin 2, win0_6.index t a * S1024x1024.size a ≤ (i a).val ∧ (i a).val < win0_6.index t a * S1024x1024.size a + S1024x1024.size a := by
  show i ∈ ((View.whole main_v11_0).slice (win0_6.rect t)).set ↔ _
  rw [View.set_slice_whole, Rect.mem_set_unit]
  exact Iff.rfl

/-- Every index (r, c) of the [65536, 1024] output is in the block that point r / 1024 writes back. -/
theorem cover6 (i : S65536x1024.Idx) : ∃ t : Fin cfg0.N, (cfg0.win 6).flush t = true ∧ i ∈ ((cfg0.win 6).blk t).view.set := by
  have hi0 : (i 0).val < 65536 := (i 0).isLt
  have hi1 : (i 1).val < 1024 := (i 1).isLt
  have hN : cfg0.N = 64 := N_0
  obtain ⟨t, ht⟩ : ∃ t : Fin cfg0.N, t.val = (i 0).val / 1024 := ⟨⟨(i 0).val / 1024, by rw [hN]; omega⟩, rfl⟩
  obtain ⟨e0, e1⟩ := idx6 t
  refine ⟨t, flush0_6 t, ?_⟩
  rw [mem_blk6]
  intro a
  match a with
  | ⟨0, _⟩ =>
    show win0_6.index t (0 : Fin 2) * 1024 ≤ (i 0).val ∧ (i 0).val < win0_6.index t (0 : Fin 2) * 1024 + 1024
    omega
  | ⟨1, _⟩ =>
    show win0_6.index t (1 : Fin 2) * 1024 ≤ (i 1).val ∧ (i 1).val < win0_6.index t (1 : Fin 2) * 1024 + 1024
    omega

/-! ## The [65536, 64] output -/

/-- The block index of point t on the [65536, 64] output is (t, 0): decided over the grid. -/
theorem idx7 : ∀ t : Fin cfg0.N, win0_7.index t (0 : Fin 2) = t.val ∧ win0_7.index t (1 : Fin 2) = 0 :=
  (by decide +kernel : ∀ t : Fin grid0.N, _)

/-- An index of the array is in point t's block iff each coordinate is in the block's range on its axis. -/
theorem mem_blk7 (t : Fin cfg0.N) (i : S65536x64.Idx) :
    i ∈ ((cfg0.win 7).blk t).view.set ↔ ∀ a : Fin 2, win0_7.index t a * S1024x64.size a ≤ (i a).val ∧ (i a).val < win0_7.index t a * S1024x64.size a + S1024x64.size a := by
  show i ∈ ((View.whole main_v11_1).slice (win0_7.rect t)).set ↔ _
  rw [View.set_slice_whole, Rect.mem_set_unit]
  exact Iff.rfl

/-- Every index (r, c) of the [65536, 64] output is in the block that point r / 1024 writes back. -/
theorem cover7 (i : S65536x64.Idx) : ∃ t : Fin cfg0.N, (cfg0.win 7).flush t = true ∧ i ∈ ((cfg0.win 7).blk t).view.set := by
  have hi0 : (i 0).val < 65536 := (i 0).isLt
  have hi1 : (i 1).val < 64 := (i 1).isLt
  have hN : cfg0.N = 64 := N_0
  obtain ⟨t, ht⟩ : ∃ t : Fin cfg0.N, t.val = (i 0).val / 1024 := ⟨⟨(i 0).val / 1024, by rw [hN]; omega⟩, rfl⟩
  obtain ⟨e0, e1⟩ := idx7 t
  refine ⟨t, flush0_7 t, ?_⟩
  rw [mem_blk7]
  intro a
  match a with
  | ⟨0, _⟩ =>
    show win0_7.index t (0 : Fin 2) * 1024 ≤ (i 0).val ∧ (i 0).val < win0_7.index t (0 : Fin 2) * 1024 + 1024
    omega
  | ⟨1, _⟩ =>
    show win0_7.index t (1 : Fin 2) * 64 ≤ (i 1).val ∧ (i 1).val < win0_7.index t (1 : Fin 2) * 64 + 64
    omega

end Cert.Quantizer.Cover

end
-- ==== Proof.ArrLogits.lean ====
import proofs.«156668_j41953240547407_2_alg».proof.Proof.Gen.KernelIdeal.Frame
import proofs.«156668_j41953240547407_2_alg».proof.Proof.Spec
import proofs.«156668_j41953240547407_2_alg».proof.Proof.Entry
import proofs.«156668_j41953240547407_2_alg».proof.Proof.Blocks
import proofs.«156668_j41953240547407_2_alg».proof.Proof.PayLogits
import proofs.«156668_j41953240547407_2_alg».proof.Proof.Cover
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

/-
  The logits array after the run.

  What point t writes back into the logits is block t of the logits of all points against all codes, and the 64 blocks
  cover the array: it ends holding the logits of all points against all codes.
-/

namespace Cert.Quantizer.Logits

open Cert.KernelIdeal Cert.KernelIdeal.Gen Cert.Quantizer Cert.Quantizer.Entry Cert.Quantizer.Blocks
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The points as the blocks find them, re-laid as 65536 rows. -/
abbrev rows (c : Dev nD) : S65536x64.Idx → EReal := V m c main_v0

/-- Entry (y, q) of the logits block computed at point t is the logit of point 1024 t + y against code q. -/
theorem logits_at (c : Dev nD) (t : Fin cfg0.N) (y q : Fin 1024) (r : Fin 65536) (hr : r.val = t.val * 1024 + y.val) :
    k0_pay3 (F := Ideal) (iblk m c 0 t) (iblk m c 2 t) (iblk m c 3 t) (iblk m c 5 t) (ix2 y q)
      = logitsArr (rows m c) (codes m c) (precArr (logParam m c) ix0) (ix2 r q) := by
  refine (Pay.logits_block_apply (iblk m c 0 t) (iblk m c 2 t) (iblk m c 3 t) (iblk m c 5 t) y q).trans ?_
  show logitOf _ _ _ _ = logitOf _ _ _ _
  refine congr (congr (congr (congrArg logitOf ?_) ?_) ?_) ?_
  · exact Finset.sum_congr rfl fun k _ => by rw [points_block m c t y k r hr]
  · exact codesSq_block m c t 0 q
  · exact Finset.sum_congr rfl fun k _ => by rw [points_block m c t y k r hr, codesT_block m c t k q]
  · exact prec_block m c t 0 0

/-- What point t writes back into the logits: block t of the logits of all points against all codes. -/
theorem flushed_logits (c : Dev nD) (t : Fin cfg0.N) :
    (dats m 0 c).flushed 6 t
      = ((cfg0.win 6).blk t).view.read (Elt Ideal) (logitsArr (rows m c) (codes m c) (precArr (logParam m c) ix0)) := by
  obtain ⟨-, -, -, -, -, -, -, -, -, -, -, -, e0, e1, -⟩ := idx_facts t
  show (cfg0.win 6).cut (grid0.coords t) ((dats m 0 c).after 6 t) = _
  rw [after0_6]
  unfold out0_6
  rw [View.canon_unit_zero hz]
  simp only [View.ld_unit_zero (S := S1024x64) hz, View.ld_unit_zero (S := S64x1024) hz, View.ld_unit_zero (S := S1x1024) hz,
    View.ld_unit_zero (S := S1x1) hz]
  refine funext fun (j : S1024x1024.Idx) => ?_
  obtain ⟨y, q, rfl⟩ : ∃ (y : Fin 1024) (q : Fin 1024), j = ix2 y q := ⟨j 0, j 1, eq_ix2 j⟩
  have ht : t.val < 64 := t.isLt
  have hlt : t.val * 1024 + y.val < 65536 := by have := y.isLt; omega
  have hemb : ((cfg0.win 6).blk t).view.emb (ix2 y q) = ix2 (⟨t.val * 1024 + y.val, hlt⟩ : Fin 65536) q :=
    funext fun a => Fin.ext (by
      match a with
      | ⟨0, _⟩ => show win0_6.index t (0 : Fin 2) * 1024 + 1 * y.val = t.val * 1024 + y.val; rw [e0]; omega
      | ⟨1, _⟩ => show win0_6.index t (1 : Fin 2) * 1024 + 1 * q.val = q.val; rw [e1]; omega)
  show k0_pay3 (F := Ideal) (iblk m c 0 t) (iblk m c 2 t) (iblk m c 3 t) (iblk m c 5 t) (ix2 y q)
    = logitsArr (rows m c) (codes m c) (precArr (logParam m c) ix0) (((cfg0.win 6).blk t).view.emb (ix2 y q))
  rw [hemb]
  exact logits_at m c t y q _ rfl

/-- The logits array after the run: the logits of all points against all codes. -/
theorem final_logits (c : Dev nD) :
    (dats m 0 c).arrAt 6 cfg0.N = logitsArr (rows m c) (codes m c) (precArr (logParam m c) ix0) :=
  (dats m 0 c).arrAt_eq_of_cover 6 (logitsArr (rows m c) (codes m c) (precArr (logParam m c) ix0))
    (fun t _ => flushed_logits m c t) Cert.Quantizer.Cover.cover6

end Cert.Quantizer.Logits

end
-- ==== Proof.PayQuant.lean ====
/-
  The kernel body's quantized points, read at an entry.

  The body adds to each logit the Gumbel term -log(-log(u + ε) + ε) of its uniform sample u, each negation written as
  a subtraction from the zero word (which is 0), and divides by the temperature repeated over the array; ε and the
  temperature are the words the specification prints, never evaluated.  It then takes each row's maximum from the word
  for -∞ and compares it once more with that word, keeps it as a column and repeats it along the row, subtracts it,
  exponentiates, divides by the row's sum (kept as a column and repeated likewise), and multiplies the [1024, 1024]
  weights into the [1024, 64] codes, starting from the zero array.  The change of format before the product is the
  identity on the extended reals.  At the entry (y, d) this is the softmax-weighted sum over the codes q of coordinate d
  of code q, the softmax taken over the tempered, perturbed logits of point y.  The logits are left as they are.
-/
import proofs.«156668_j41953240547407_2_alg».proof.Proof.Spec
import proofs.«156668_j41953240547407_2_alg».proof.Proof.Gen.KernelIdeal.Skeleton
import proofs.«156668_j41953240547407_2_alg».proof.Proof.LibSoftmaxRows
import proofs.«156668_j41953240547407_2_alg».proof.Proof.LibRowOps
import proofs.«156668_j41953240547407_2_alg».proof.Proof.LibRowMax
import proofs.«156668_j41953240547407_2_alg».proof.Proof.LibPlainMatmul
import Idealize.ShloMosaic.Lib.Pipeline.Value
import Idealize.ShloMosaic.Lib.ValueIdx
import Idealize.ShloMosaic.PureOps.Ideal.Laws

noncomputable section

open scoped BigOperators

namespace Cert.Quantizer.Pay

open Idealize.ShloMosaic Idealize.ShloMosaic.ValueIdx Cert.KernelIdeal Cert.KernelIdeal.Gen Cert.Quantizer Cert.SoftmaxRows

/-- The body's last step at the entry (y, d), for any codes B and any numerator N and denominator D of the tempered
    logits: the softmax-weighted sum over the codes, the softmax taken over row y of N / D. -/
theorem weighted_codes_apply (B : FVec Ideal S1024x64 .bf16) (N D : FVec Ideal S1024x1024 .f32) (y : Fin 1024) (d : Fin 64) :
    k0_pay1 (F := Ideal) B N D (ix2 y d)
      = ∑ q : Fin 1024, weight (fun q' : Fin 1024 => divf N D (ix2 y q')) q * B (ix2 q d) := by
  unfold k0_pay1
  dsimp only
  generalize divf N D = T
  refine (Cert.PlainMatmul.zero_acc_apply (φ₁ := .bf16) (φ₂ := .bf16)
    Facts₀.dot_S1024x1024_S1024x64_S1024x64_1_0_0_1_n_n_wf none _ B y d).trans ?_
  refine Finset.sum_congr rfl fun k _ => congrArg (· * B (ix2 k d)) ?_
  exact softmax_rows_apply (a := 1024) (n := 1024) T Facts₀.reduces_S1024x1024_S1024 (.inl rfl) rfl rfl
    Facts₀.shapeCasts_S1024_S1024x1 Facts₀.broadcasts_S1024x1_S1024x1024 y k

/-- The body's tempered entry (y, q): the logit plus the Gumbel term of the uniform sample (each negation a
    subtraction from the zero word, which is 0), over the temperature. -/
theorem tempered_entry (x0 : Vec Ideal S1024x64 .f32) (x2 : Vec Ideal S64x1024 .bf16) (x3 : Vec Ideal S1x1024 .f32)
    (x4 : Vec Ideal S1024x1024 .f32) (x5 : Vec Ideal S1x1 .f32) (y q : Fin 1024) :
    divf (F := Ideal) (k0_pay4 x0 x2 x3 x4 x5) (k0_pay5 (F := Ideal)) (ix2 y q)
      = tempered (k0_pay3 (F := Ideal) x0 x2 x3 x5 (ix2 y q)) (x4 (ix2 y q)) := by
  unfold k0_pay4 k0_pay5
  show Ideal.div (k0_pay3 (F := Ideal) x0 x2 x3 x5 (ix2 y q)
      + (Ideal.ofBits .f32 0x00000000#32 - Ideal.log ((Ideal.ofBits .f32 0x00000000#32
          - Ideal.log (x4 (ix2 y q) + Ideal.ofBits .f32 0x2EDBE6FF#32)) + Ideal.ofBits .f32 0x2EDBE6FF#32)))
    (Ideal.ofBits .f32 0x3F000000#32) = _
  rw [Ideal.ofBits_zero_f32]
  simp only [zero_sub]
  rfl

theorem quant_block_apply (x0 : Vec Ideal S1024x64 .f32) (x1 : Vec Ideal S1024x64 .bf16) (x2 : Vec Ideal S64x1024 .bf16)
    (x3 : Vec Ideal S1x1024 .f32) (x4 : Vec Ideal S1024x1024 .f32) (x5 : Vec Ideal S1x1 .f32) (y : Fin 1024) (d : Fin 64) :
    k0_pay1 (F := Ideal) (k0_pay2 x1) (k0_pay4 x0 x2 x3 x4 x5) (k0_pay5 (F := Ideal)) (ix2 y d)
      = ∑ q : Fin 1024, weight (fun q' : Fin 1024 =>
          tempered (k0_pay3 (F := Ideal) x0 x2 x3 x5 (ix2 y q')) (x4 (ix2 y q'))) q * x1 (ix2 q d) := by
  have h2 : k0_pay2 (F := Ideal) x1 = x1 := shapeCast_self x1 _
  have hT : (fun q' : Fin 1024 => divf (F := Ideal) (k0_pay4 x0 x2 x3 x4 x5) (k0_pay5 (F := Ideal)) (ix2 y q'))
      = fun q' : Fin 1024 => tempered (k0_pay3 (F := Ideal) x0 x2 x3 x5 (ix2 y q')) (x4 (ix2 y q')) :=
    funext fun q' => tempered_entry x0 x2 x3 x4 x5 y q'
  rw [weighted_codes_apply, h2, hT]

end Cert.Quantizer.Pay

end
-- ==== Proof.ArrQuant.lean ====
import proofs.«156668_j41953240547407_2_alg».proof.Proof.Gen.KernelIdeal.Frame
import proofs.«156668_j41953240547407_2_alg».proof.Proof.Spec
import proofs.«156668_j41953240547407_2_alg».proof.Proof.Entry
import proofs.«156668_j41953240547407_2_alg».proof.Proof.Blocks
import proofs.«156668_j41953240547407_2_alg».proof.Proof.ArrLogits
import proofs.«156668_j41953240547407_2_alg».proof.Proof.PayQuant
import proofs.«156668_j41953240547407_2_alg».proof.Proof.Cover
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

/-
  The quantized points after the run.

  Row y of the block computed at point t is the softmax-weighted sum of the codes for point 1024 t + y: its tempered
  logits are those of that point (the logits block, the samples block), and the codes are the whole codebook.  The 64
  blocks cover the array.
-/

namespace Cert.Quantizer.Quant

open Cert.KernelIdeal Cert.KernelIdeal.Gen Cert.Quantizer Cert.Quantizer.Entry Cert.Quantizer.Blocks Cert.Quantizer.Logits
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- Entry (y, d) of the block of quantized points computed at point t is coordinate d of the quantized point 1024 t + y. -/
theorem quant_at (c : Dev nD) (t : Fin cfg0.N) (y : Fin 1024) (d : Fin 64) (r : Fin 65536) (hr : r.val = t.val * 1024 + y.val) :
    k0_pay1 (F := Ideal) (k0_pay2 (iblk m c 1 t))
        (k0_pay4 (iblk m c 0 t) (iblk m c 2 t) (iblk m c 3 t) (iblk m c 4 t) (iblk m c 5 t)) (k0_pay5 (F := Ideal)) (ix2 y d)
      = quantArr (rows m c) (codes m c) (precArr (logParam m c) ix0) (samples m c) (ix2 r d) := by
  refine (Pay.quant_block_apply (iblk m c 0 t) (iblk m c 1 t) (iblk m c 2 t) (iblk m c 3 t) (iblk m c 4 t) (iblk m c 5 t) y d).trans ?_
  have hrow : (fun q' : Fin 1024 => tempered (k0_pay3 (F := Ideal) (iblk m c 0 t) (iblk m c 2 t) (iblk m c 3 t) (iblk m c 5 t) (ix2 y q'))
        ((iblk m c 4 t : Vec Ideal S1024x1024 .f32) (ix2 y q')))
      = temperedRow (rows m c) (codes m c) (precArr (logParam m c) ix0) (samples m c) r :=
    funext fun q' => by rw [logits_at m c t y q' r hr, samples_block m c t y q' r hr]; rfl
  rw [hrow]
  exact Finset.sum_congr rfl fun q _ => by rw [codes_block m c t q d]

/-- What point t writes back into the quantized points: block t of the quantized points. -/
theorem flushed_quant (c : Dev nD) (t : Fin cfg0.N) :
    (dats m 0 c).flushed 7 t
      = ((cfg0.win 7).blk t).view.read (Elt Ideal) (quantArr (rows m c) (codes m c) (precArr (logParam m c) ix0) (samples m c)) := by
  obtain ⟨-, -, -, -, -, -, -, -, -, -, -, -, -, -, e0, e1⟩ := idx_facts t
  show (cfg0.win 7).cut (grid0.coords t) ((dats m 0 c).after 7 t) = _
  rw [after0_7]
  unfold out0_7
  rw [View.canon_unit_zero hz]
  simp only [View.ld_unit_zero (S := S1024x64) hz, View.ld_unit_zero (S := S64x1024) hz, View.ld_unit_zero (S := S1x1024) hz,
    View.ld_unit_zero (S := S1024x1024) hz, View.ld_unit_zero (S := S1x1) hz]
  refine funext fun (j : S1024x64.Idx) => ?_
  obtain ⟨y, d, rfl⟩ : ∃ (y : Fin 1024) (d : Fin 64), j = ix2 y d := ⟨j 0, j 1, eq_ix2 j⟩
  have ht : t.val < 64 := t.isLt
  have hlt : t.val * 1024 + y.val < 65536 := by have := y.isLt; omega
  have hemb : ((cfg0.win 7).blk t).view.emb (ix2 y d) = ix2 (⟨t.val * 1024 + y.val, hlt⟩ : Fin 65536) d :=
    funext fun a => Fin.ext (by
      match a with
      | ⟨0, _⟩ => show win0_7.index t (0 : Fin 2) * 1024 + 1 * y.val = t.val * 1024 + y.val; rw [e0]; omega
      | ⟨1, _⟩ => show win0_7.index t (1 : Fin 2) * 64 + 1 * d.val = d.val; rw [e1]; omega)
  show k0_pay1 (F := Ideal) (k0_pay2 (iblk m c 1 t))
      (k0_pay4 (iblk m c 0 t) (iblk m c 2 t) (iblk m c 3 t) (iblk m c 4 t) (iblk m c 5 t)) (k0_pay5 (F := Ideal)) (ix2 y d)
    = quantArr (rows m c) (codes m c) (precArr (logParam m c) ix0) (samples m c) (((cfg0.win 7).blk t).view.emb (ix2 y d))
  rw [hemb]
  exact quant_at m c t y d _ rfl

/-- The array of quantized points after the run. -/
theorem final_quant (c : Dev nD) :
    (dats m 0 c).arrAt 7 cfg0.N = quantArr (rows m c) (codes m c) (precArr (logParam m c) ix0) (samples m c) :=
  (dats m 0 c).arrAt_eq_of_cover 7 (quantArr (rows m c) (codes m c) (precArr (logParam m c) ix0) (samples m c))
    (fun t _ => flushed_quant m c t) Cert.Quantizer.Cover.cover7

end Cert.Quantizer.Quant

end
-- ==== Proof.Tail.lean ====
/-
  After the blocks: what the program returns.

  When the 64 blocks have run, the program's two last host lines only re-lay the two output arrays, the [65536, 64]
  array as [32, 2048, 64] and the [65536, 1024] array as [32, 2048, 1024].  The precision buffer and the four arguments
  are written by no block and by neither line.  So whatever the two arrays end holding, the program's three results
  are their re-layings and the precision as the host computed it before the blocks, and the arguments end as they
  began.
-/
import proofs.«156668_j41953240547407_2_alg».proof.Proof.Gen.KernelIdeal.Frame
import proofs.«156668_j41953240547407_2_alg».proof.Proof.Entry
import Idealize.ShloMosaic.Lib.StableHlo.Run
import Idealize.ShloMosaic.Lib.Pipeline.Value

set_option maxRecDepth 16384

noncomputable section

namespace Cert.Quantizer.Tail

open Cert.KernelIdeal Cert.KernelIdeal.Gen Cert.Quantizer.Entry
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- Neither host line after the blocks writes the precision buffer, and it is no block's array: it ends holding the
    precision the host computed before the blocks. -/
theorem W_main_v3 (dats : (p : Fin _) → (c : Dev nD) → Dat τ (Elt Ideal) Unit ℕ (UR sig nD τ) ℕ (cfgs p) c) (c : Dev nD) :
    (Pipeline.afterTail₀ cfgs dats 0 (V0 m) [hostOps1] c main_v3 : S_.Idx → EReal) = precArr (logParam m c) := by
  unfold Pipeline.afterTail₀
  rw [StableHlo.after_of_forall_not_mem (b := Proc.devRef .tc main_v3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_v3 (by exact (by decide : ∀ w, Pipeline.arrRef spec0 w ≠ main_v3))]
  exact prec_kept m c

/-- The first result: the [65536, 64] array the blocks leave, re-laid as [32, 2048, 64]. -/
theorem W_main_v12 (c : Dev nD) (Q : S65536x64.Idx → EReal) (hQ : (dats m 0 c).arrAt 7 cfg0.N = Q) :
    (Pipeline.afterTail₀ cfgs (dats m) 0 (V0 m) [hostOps1] c main_v12 : S32x2048x64.Idx → EReal)
      = shapeCast S32x2048x64 Q shapeCasts_S65536x64_S32x2048x64 := by
  have hw : (Pipeline.withArrays (cfgs 0).spec c (V0 m c) (fun w => (dats m 0 c).arrAt w (cfgs 0).N)
      (Proc.devRef .tc main_v11_1) : S65536x64.Idx → EReal) = Q :=
    (Pipeline.withArrays_arr spec0 launch0.win.arr_inj c _ _ 7).trans hQ
  unfold Pipeline.afterTail₀
  show StableHlo.after hostOps1 _ (Proc.devRef .tc main_v12) = _
  after_results
  rw [hw]
  rfl

/-- The third result: the [65536, 1024] array the blocks leave, re-laid as [32, 2048, 1024]. -/
theorem W_main_v13 (c : Dev nD) (L : S65536x1024.Idx → EReal) (hL : (dats m 0 c).arrAt 6 cfg0.N = L) :
    (Pipeline.afterTail₀ cfgs (dats m) 0 (V0 m) [hostOps1] c main_v13 : S32x2048x1024.Idx → EReal)
      = shapeCast S32x2048x1024 L shapeCasts_S65536x1024_S32x2048x1024 := by
  have hw : (Pipeline.withArrays (cfgs 0).spec c (V0 m c) (fun w => (dats m 0 c).arrAt w (cfgs 0).N)
      (Proc.devRef .tc main_v11_0) : S65536x1024.Idx → EReal) = L :=
    (Pipeline.withArrays_arr spec0 launch0.win.arr_inj c _ _ 6).trans hL
  unfold Pipeline.afterTail₀
  show StableHlo.after hostOps1 _ (Proc.devRef .tc main_v13) = _
  after_results
  rw [hw]
  rfl

/-- The program's run, read: whatever the two output arrays end holding after the blocks (L and Q), the three results
    are Q re-laid, the precision, and L re-laid, and the four arguments end as they began. -/
theorem kernel_run (L : Dev nD → S65536x1024.Idx → EReal) (Q : Dev nD → S65536x64.Idx → EReal)
    (hL : ∀ c, (dats m 0 c).arrAt 6 cfg0.N = L c) (hQ : ∀ c, (dats m 0 c).arrAt 7 cfg0.N = Q c) :
    θ_run defs (onTc (τ := τ) (main (F := Ideal))) ⟨m, fun _ => 0, ρ⟩ (fun r => ∀ c : Dev nD,
      r.2.mem ((c.tc : Thread nD τ).loc main_v12) = shapeCast S32x2048x64 (Q c) shapeCasts_S65536x64_S32x2048x64
      ∧ r.2.mem ((c.tc : Thread nD τ).loc main_v3) = precArr (logParam m c)
      ∧ r.2.mem ((c.tc : Thread nD τ).loc main_v13) = shapeCast S32x2048x1024 (L c) shapeCasts_S65536x1024_S32x2048x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).2 main_v12 (Pipeline.mem_restRefs_of main_v12 (by decide) (by decide))).trans (W_main_v12 m c (Q c) (hQ c)),
      ((h c).2 main_v3 (Pipeline.mem_restRefs_of main_v3 (by decide) (by decide))).trans (W_main_v3 m (dats m) c),
      ((h c).2 main_v13 (Pipeline.mem_restRefs_of main_v13 (by decide) (by decide))).trans (W_main_v13 m c (L c) (hL c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 4).trans (((dats m 0 c).arrAt_in 4 rfl _).trans ((A_eq m c 4).trans (V_main_arg3 m c)))⟩)
    (run_main m ρ)

end Cert.Quantizer.Tail

end
-- ==== Proof.RefLogits.lean ====
/-
  The reference's logits are the specification's.

  Entry (r, q) of the reference's logits array is -((|z_r|² + |b_q|²) - 2 ⟨z_r, b_q⟩) times the precision, where z_r is
  row r of the points (after their reshape to 65536 rows), b_q is row q of the codebook, the two squared lengths are
  sums over the 64 coordinates started from the zero word (which is 0), and the inner product is the contraction of
  the points with the transposed codebook, whose entry (k, q) is the codebook's entry (q, k).  The squared lengths
  reach entry (r, q) through keep-dimension broadcasts, which read row r, respectively row q, at every entry.  The
  reshaped points and the precision are left as they are: the statement reads neither.
-/
import proofs.«156668_j41953240547407_2_alg».proof.Proof.Spec
import proofs.«156668_j41953240547407_2_alg».proof.Proof.Gen.ReferenceIdeal.Read

noncomputable section

open scoped BigOperators

namespace Cert.Quantizer.Ref

open Idealize.ShloMosaic Idealize.ShloMosaic.ValueIdx Cert.ReferenceIdeal Cert.ReferenceIdeal.Gen Cert.ReferenceIdeal.Read Cert.Quantizer

theorem ref_logits (x0 : (⟨S32x2048x64, .f32⟩ : BufTy).Contents (Elt Ideal)) (x1 : (⟨S1024x64, .f32⟩ : BufTy).Contents (Elt Ideal))
    (x2 : (⟨S_, .f32⟩ : BufTy).Contents (Elt Ideal)) :
    val_main_v20 (F := Ideal) x0 x1 x2
      = logitsArr (val_main_v3 (F := Ideal) x0) x1 (val_main_v2 (F := Ideal) x2 ix0) := by
  funext i
  obtain ⟨r, q, rfl⟩ : ∃ (r : Fin 65536) (q : Fin 1024), i = ix2 r q := ⟨i 0, i 1, eq_ix2 i⟩
  have e5 : ∀ k : Fin 64, idx_main_v5 (idx_main_v6 (idx_main_v10 (ix2 r q))) k = ix2 r k := fun k =>
    funext fun a => Fin.ext (by match a with | ⟨0, _⟩ => rfl | ⟨1, _⟩ => rfl)
  have e8 : ∀ k : Fin 64, idx_main_v8 (idx_main_v9 (idx_main_v11 (ix2 r q))) k = ix2 q k := fun k =>
    funext fun a => Fin.ext (by match a with | ⟨0, _⟩ => rfl | ⟨1, _⟩ => rfl)
  have el : ∀ k : Fin 64, lidx_main_v14 (ix2 r q) k = ix2 r k := fun k =>
    funext fun a => Fin.ext (by match a with | ⟨0, _⟩ => rfl | ⟨1, _⟩ => rfl)
  have er : ∀ k : Fin 64, idx_main_v13 (ridx_main_v14 (ix2 r q) k) = ix2 q k := fun k =>
    funext fun a => Fin.ext (by match a with | ⟨0, _⟩ => rfl | ⟨1, _⟩ => rfl)
  rw [val_main_v20_apply, val_main_v18_apply, val_main_v17_apply, val_main_v12_apply, val_main_v10_apply,
    val_main_v6_apply, val_main_v5_apply, val_main_v11_apply, val_main_v9_apply, val_main_v8_apply,
    val_main_v16_apply, val_main_v15_apply, val_main_v14_apply, val_main_v19_apply]
  show _ = logitOf (∑ k : Fin 64, val_main_v3 (F := Ideal) x0 (ix2 r k) * val_main_v3 (F := Ideal) x0 (ix2 r k))
    (∑ k : Fin 64, x1 (ix2 q k) * x1 (ix2 q k))
    (∑ k : Fin 64, val_main_v3 (F := Ideal) x0 (ix2 r k) * x1 (ix2 q k)) (val_main_v2 (F := Ideal) x2 ix0)
  simp only [val_main_v4_apply, val_main_v7_apply, val_main_v13_apply, val_main_cst_1_apply, val_main_cst_2_apply,
    val_main_cst_3_apply, e5, e8, el, er, Ideal.mulf_def, Ideal.addf_def, Ideal.subf_def, Ideal.hostNegf_def,
    Ideal.negf_def, Ideal.ofBits_def, Ideal.ofBits_zero_f32, zero_add, logitOf]

end Cert.Quantizer.Ref

end
-- ==== Proof.LibScatterConst.lean ====
/-
  Two general facts about array operations, free of any particular program.

  A scatter that overwrites with one constant.  A scatter whose body returns the update, and whose update values are all
  one constant c, is a left fold of overwrites by c over the update indices.  Because every overwrite writes the same
  value, neither the order of the updates nor how many of them share a target matters: at an operand index i' the
  result is c when some update index lands at i', and the operand's element when none does.  This is proved first for a
  fold over any list of steps that each overwrite at most one index with c (foldl_overwrite_const), then for the
  scatter (scatter_const_apply).

  A maximum over a finite set.  The fold of the maximum from a starting value b over a finite family is at least
  every member (le_fold_of_mem), and is b or one of the members (fold_eq_init_or_mem); and the reduction by maximum over
  the second axis of a two-axis array of extended reals is, at row p, that fold over the row's entries
  (hostReduce_max_rows).
-/
import Idealize.ShloMosaic.PureOps.ShapeOps
import Idealize.ShloMosaic.PureOps.Reduce
import Idealize.ShloMosaic.PureOps.Ideal.Laws
import Idealize.ShloMosaic.Lib.ValueIdx

noncomputable section

namespace Cert.ScatterConst

open Idealize.ShloMosaic Idealize.ShloMosaic.ValueIdx

/-- Overwriting by one constant, folded over a list of steps. Step `k` has a target `R k` (or none): with a target `i` it
    makes the function `c` at `i` and leaves it alone elsewhere, with no target it leaves it alone everywhere. After the
    whole list the function is, at `i'`, either `c`, and then some step of the list targeted `i'`, or what it was at the
    start, and then no step of the list targeted `i'`. No order of the steps matters: every overwrite writes the same
    value. -/
theorem foldl_overwrite_const {ι κ α : Type} (R : κ → Option ι) (c : α) (step : (ι → α) → κ → ι → α)
    (h_hit : ∀ r k i, R k = some i → step r k i = c)
    (h_miss : ∀ r k i i', R k = some i → i' ≠ i → step r k i' = r i')
    (h_none : ∀ r k, R k = none → step r k = r) (i' : ι) :
    ∀ (l : List κ) (x : ι → α),
      (l.foldl step x i' = c ∧ ∃ k ∈ l, R k = some i') ∨ (l.foldl step x i' = x i' ∧ ∀ k ∈ l, R k ≠ some i')
  | [], x => Or.inr ⟨rfl, fun k hk => absurd hk (List.not_mem_nil)⟩
  | k :: l, x => by
    rw [List.foldl_cons]
    rcases foldl_overwrite_const R c step h_hit h_miss h_none i' l (step x k) with ⟨h1, n, hn, hR⟩ | ⟨h1, h2⟩
    · exact Or.inl ⟨h1, n, List.mem_cons_of_mem _ hn, hR⟩
    · rw [h1]
      cases hk : R k with
      | none =>
        rw [h_none x k hk]
        refine Or.inr ⟨rfl, fun n hn => ?_⟩
        rcases List.mem_cons.1 hn with rfl | hn
        · rw [hk]; exact (Option.some_ne_none i').symm
        · exact h2 n hn
      | some i =>
        by_cases hi : i' = i
        · subst hi
          exact Or.inl ⟨h_hit x k _ hk, k, List.mem_cons_self, hk⟩
        · refine Or.inr ⟨h_miss x k i i' hk hi, fun n hn => ?_⟩
          rcases List.mem_cons.1 hn with rfl | hn
          · rw [hk]; intro e; exact hi (Option.some.inj e).symm
          · exact h2 n hn

/-- A scatter whose body returns the update, with every update value the same `c`: at `i'` the result is `c`, and
    then some update index lands at `i'`, or it is the operand's element, and then no update index lands at `i'`. -/
theorem scatter_const_apply {s si u : Shape} {α : Type} {w : Nat} (d : ScatterDims s si u) (x : s.Idx → α) (idx : IVec si w)
    (upd : u.Idx → α) (c : α) (hupd : ∀ j, upd j = c) (i' : s.Idx) :
    (Host.scatter d (fun _ b => b) x idx upd i' = c
        ∧ ∃ n ∈ List.finRange u.numel, d.resultIdx? (u.rowMajor.symm n) idx = some i')
      ∨ (Host.scatter d (fun _ b => b) x idx upd i' = x i'
        ∧ ∀ n ∈ List.finRange u.numel, d.resultIdx? (u.rowMajor.symm n) idx ≠ some i') := by
  unfold Host.scatter
  refine foldl_overwrite_const (fun n => d.resultIdx? (u.rowMajor.symm n) idx) c _ ?_ ?_ ?_ i' _ x
  · intro r k i hk
    beta_reduce at hk ⊢
    rw [hk]
    dsimp only
    rw [if_pos rfl]
    exact hupd _
  · intro r k i i'' hk hi
    beta_reduce at hk ⊢
    rw [hk]
    dsimp only
    rw [if_neg hi]
  · intro r k hk
    beta_reduce at hk ⊢
    rw [hk]

/-- A fold of the maximum over a finite set, from `b`, is at least every folded value. -/
theorem le_fold_of_mem {ι β : Type} [DecidableEq ι] [LinearOrder β] (op : β → β → β) [Std.Commutative op] [Std.Associative op]
    (hop : ∀ x y, op x y = max x y) (b : β) (f : ι → β) (s : Finset ι) :
    ∀ x ∈ s, f x ≤ s.fold op b f := by
  induction s using Finset.induction_on with
  | empty => intro x hx; simp at hx
  | insert a s ha ih =>
    intro x hx
    rw [Finset.fold_insert ha, hop]
    rcases Finset.mem_insert.1 hx with rfl | hx
    · exact le_max_left _ _
    · exact (ih x hx).trans (le_max_right _ _)

/-- A fold of the maximum over a finite set, from `b`, is `b` or one of the folded values. -/
theorem fold_eq_init_or_mem {ι β : Type} [DecidableEq ι] [LinearOrder β] (op : β → β → β) [Std.Commutative op] [Std.Associative op]
    (hop : ∀ x y, op x y = max x y) (b : β) (f : ι → β) (s : Finset ι) :
    s.fold op b f = b ∨ ∃ x ∈ s, s.fold op b f = f x := by
  induction s using Finset.induction_on with
  | empty => left; simp
  | insert a s ha ih =>
    rw [Finset.fold_insert ha, hop]
    rcases max_choice (f a) (s.fold op b f) with h | h
    · right; exact ⟨a, Finset.mem_insert_self _ _, h⟩
    · rw [h]
      rcases ih with ih | ⟨x, hx, ih⟩
      · left; exact ih
      · right; exact ⟨x, Finset.mem_insert_of_mem hx, ih⟩

/-- The maximum over the second axis of an [a, n] array of extended reals, from the starting value's element: at row
    `p` it is the fold of the maximum over the columns `q` of the entries `(p, q)`. -/
theorem hostReduce_max_rows {a n : ℕ} {φ : FTy} {u : Shape} (y : FVec Ideal ⟨2, ![a, n]⟩ φ) (init : u.Idx → Ideal φ)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduce (FloatOps.maximumf (F := Ideal) (φ := φ)) y init h' hu (ix1 p)
      = (Finset.univ : Finset (Fin n)).fold (FloatOps.maximumf (F := Ideal) (φ := φ)) (init (Shape.Idx.first hu))
          (fun q => y (ix2 p q)) := by
  rw [Host.reduce_eq_fold_single (s := ⟨2, ![a, n]⟩) (t := ⟨1, ![a]⟩) (a := (1 : Fin 2))
    (FloatOps.maximumf (F := Ideal) (φ := φ)) y init h' h hu (ix1 p)]
  refine Finset.fold_congr fun k _ => ?_
  rw [Function.comp_apply]
  exact congrArg y (funext fun ax => Fin.ext (by match ax with | ⟨0, _⟩ => rfl | ⟨1, _⟩ => rfl))

end Cert.ScatterConst

end
-- ==== Proof.RefQuant.lean ====
/-
  The reference's quantized points are the specification's softmax-weighted sums of the codes.

  Row r of the reference is read in five steps.  The tempered entry (r, q) is the logit plus the Gumbel term
  -log(-log(u + ε) + ε) of the uniform sample u at (r, q), divided by the temperature; ε and the temperature are the
  words both texts print, never evaluated.  The row maximum is the maximum, over the 1024 codes, of the tempered
  entries of row r, started from the word for -∞ and compared with that word once more.  The shifted exponential at
  (r, q) is exp of the tempered entry minus the row maximum, which reaches every entry of the row through keep-dimension
  broadcasts.  The row sum of the shifted exponentials starts from the zero word, which is 0, and the weight at (r, q)
  is the shifted exponential over the row sum.  Entry (r, d) of the result is the contraction over the codes q of the
  weight at (r, q) with coordinate d of code q.  The logits themselves are left as they are.
-/
import proofs.«156668_j41953240547407_2_alg».proof.Proof.Spec
import proofs.«156668_j41953240547407_2_alg».proof.Proof.Gen.ReferenceIdeal.Read
import proofs.«156668_j41953240547407_2_alg».proof.Proof.LibScatterConst

noncomputable section

open scoped BigOperators

namespace Cert.Quantizer.Ref

open Idealize.ShloMosaic Idealize.ShloMosaic.ValueIdx Cert.ReferenceIdeal Cert.ReferenceIdeal.Gen Cert.ReferenceIdeal.Read Cert.Quantizer

/-- The reference's tempered entry (r, q): the logit plus the Gumbel term of the uniform sample, over the temperature. -/
theorem ref_tempered (x0 : (⟨S32x2048x64, .f32⟩ : BufTy).Contents (Elt Ideal)) (x1 : (⟨S1024x64, .f32⟩ : BufTy).Contents (Elt Ideal))
    (x2 : (⟨S_, .f32⟩ : BufTy).Contents (Elt Ideal)) (x3 : (⟨S65536x1024, .f32⟩ : BufTy).Contents (Elt Ideal)) (r : Fin 65536) (q : Fin 1024) :
    val_main_v31 (F := Ideal) x0 x1 x2 x3 (ix2 r q)
      = tempered (val_main_v20 (F := Ideal) x0 x1 x2 (ix2 r q)) (x3 (ix2 r q)) := by
  rw [val_main_v31_apply, val_main_v30_apply, val_main_cst_6_apply, val_main_v29_apply, val_main_v28_apply,
    val_main_v27_apply, val_main_v26_apply, val_main_v25_apply, val_main_cst_5_apply, val_main_v24_apply,
    val_main_v23_apply, val_main_v22_apply, val_main_v21_apply, val_main_cst_4_apply]
  rfl

/-- The reference's row maximum at row r is the specification's, of the row of tempered entries. -/
theorem ref_rowmax (x0 : (⟨S32x2048x64, .f32⟩ : BufTy).Contents (Elt Ideal)) (x1 : (⟨S1024x64, .f32⟩ : BufTy).Contents (Elt Ideal))
    (x2 : (⟨S_, .f32⟩ : BufTy).Contents (Elt Ideal)) (x3 : (⟨S65536x1024, .f32⟩ : BufTy).Contents (Elt Ideal)) (r : Fin 65536) :
    val_main_v34 (F := Ideal) x0 x1 x2 x3 (ix1 r)
      = rowMax (fun q : Fin 1024 => val_main_v31 (F := Ideal) x0 x1 x2 x3 (ix2 r q)) := by
  have h32 : val_main_v32 (F := Ideal) x0 x1 x2 x3 (ix1 r)
      = (Finset.univ : Finset (Fin 1024)).fold (FloatOps.maximumf (F := Ideal) (φ := .f32))
          (val_main_cst_7 (F := Ideal) (Shape.Idx.first h_S_))
          (fun q => val_main_v31 (F := Ideal) x0 x1 x2 x3 (ix2 r q)) :=
    Cert.ScatterConst.hostReduce_max_rows (val_main_v31 (F := Ideal) x0 x1 x2 x3) (val_main_cst_7 (F := Ideal))
      reducesTo_S65536x1024_S65536_d1 (by decide) h_S_ r
  rw [val_main_v34_apply, val_main_v33_apply, val_main_cst_8_apply, h32, val_main_cst_7_apply]
  rfl

/-- The reference's shifted exponential at (r, q) is the specification's. -/
theorem ref_expo (x0 : (⟨S32x2048x64, .f32⟩ : BufTy).Contents (Elt Ideal)) (x1 : (⟨S1024x64, .f32⟩ : BufTy).Contents (Elt Ideal))
    (x2 : (⟨S_, .f32⟩ : BufTy).Contents (Elt Ideal)) (x3 : (⟨S65536x1024, .f32⟩ : BufTy).Contents (Elt Ideal)) (r : Fin 65536) (q : Fin 1024) :
    val_main_v38 (F := Ideal) x0 x1 x2 x3 (ix2 r q)
      = expo (fun q' : Fin 1024 => val_main_v31 (F := Ideal) x0 x1 x2 x3 (ix2 r q')) q := by
  have e : idx_main_v35 (idx_main_v36 (ix2 r q)) = ix1 r :=
    funext fun a => Fin.ext (by match a with | ⟨0, _⟩ => rfl)
  rw [val_main_v38_apply, val_main_v37_apply, val_main_v36_apply, val_main_v35_apply, e, ref_rowmax]
  rfl

/-- The reference's softmax weight at (r, q) is the specification's. -/
theorem ref_weight (x0 : (⟨S32x2048x64, .f32⟩ : BufTy).Contents (Elt Ideal)) (x1 : (⟨S1024x64, .f32⟩ : BufTy).Contents (Elt Ideal))
    (x2 : (⟨S_, .f32⟩ : BufTy).Contents (Elt Ideal)) (x3 : (⟨S65536x1024, .f32⟩ : BufTy).Contents (Elt Ideal)) (r : Fin 65536) (q : Fin 1024) :
    val_main_v42 (F := Ideal) x0 x1 x2 x3 (ix2 r q)
      = weight (fun q' : Fin 1024 => val_main_v31 (F := Ideal) x0 x1 x2 x3 (ix2 r q')) q := by
  have e : idx_main_v40 (idx_main_v41 (ix2 r q)) = ix1 r :=
    funext fun a => Fin.ext (by match a with | ⟨0, _⟩ => rfl)
  have e39 : ∀ k : Fin 1024, idx_main_v39 (ix1 r) k = ix2 r k := fun k =>
    funext fun a => Fin.ext (by match a with | ⟨0, _⟩ => rfl | ⟨1, _⟩ => rfl)
  rw [val_main_v42_apply, val_main_v41_apply, val_main_v40_apply, e, val_main_v39_apply, val_main_cst_9_apply, ref_expo]
  simp only [e39, ref_expo, Ideal.ofBits_def, Ideal.ofBits_zero_f32, zero_add, Ideal.hostDivf_def, weight]

theorem ref_quant_apply (x0 : (⟨S32x2048x64, .f32⟩ : BufTy).Contents (Elt Ideal)) (x1 : (⟨S1024x64, .f32⟩ : BufTy).Contents (Elt Ideal))
    (x2 : (⟨S_, .f32⟩ : BufTy).Contents (Elt Ideal)) (x3 : (⟨S65536x1024, .f32⟩ : BufTy).Contents (Elt Ideal)) (r : Fin 65536) (d : Fin 64) :
    val_main_v43 (F := Ideal) x0 x1 x2 x3 (ix2 r d)
      = ∑ q : Fin 1024, weight (fun q' : Fin 1024 =>
          tempered (val_main_v20 (F := Ideal) x0 x1 x2 (ix2 r q')) (x3 (ix2 r q'))) q * x1 (ix2 q d) := by
  have el : ∀ k : Fin 1024, lidx_main_v43 (ix2 r d) k = ix2 r k := fun k =>
    funext fun a => Fin.ext (by match a with | ⟨0, _⟩ => rfl | ⟨1, _⟩ => rfl)
  have er : ∀ k : Fin 1024, ridx_main_v43 (ix2 r d) k = ix2 k d := fun k =>
    funext fun a => Fin.ext (by match a with | ⟨0, _⟩ => rfl | ⟨1, _⟩ => rfl)
  have erow : (fun q' : Fin 1024 => val_main_v31 (F := Ideal) x0 x1 x2 x3 (ix2 r q'))
      = fun q' : Fin 1024 => tempered (val_main_v20 (F := Ideal) x0 x1 x2 (ix2 r q')) (x3 (ix2 r q')) :=
    funext fun q' => ref_tempered x0 x1 x2 x3 r q'
  rw [val_main_v43_apply]
  simp only [el, er, ref_weight, erow]

end Cert.Quantizer.Ref

end
-- ==== Proof.RefArr.lean ====
/-
  The reference's quantized points, as a whole array, are the specification's.

  Entry (r, d) of the reference's result is the softmax-weighted sum over the codes q of coordinate d of code q, the
  softmax taken over the tempered, perturbed logits of point r; and the reference's logits array is the
  specification's logits of the reshaped points against the codebook at the reference's precision.  Together they
  say that the result is the specification's array of quantized points.
-/
import proofs.«156668_j41953240547407_2_alg».proof.Proof.Spec
import proofs.«156668_j41953240547407_2_alg».proof.Proof.RefLogits
import proofs.«156668_j41953240547407_2_alg».proof.Proof.RefQuant

noncomputable section

open scoped BigOperators

namespace Cert.Quantizer.Ref

open Idealize.ShloMosaic Idealize.ShloMosaic.ValueIdx Cert.ReferenceIdeal Cert.ReferenceIdeal.Gen Cert.ReferenceIdeal.Read Cert.Quantizer

theorem ref_quant (x0 : (⟨S32x2048x64, .f32⟩ : BufTy).Contents (Elt Ideal)) (x1 : (⟨S1024x64, .f32⟩ : BufTy).Contents (Elt Ideal))
    (x2 : (⟨S_, .f32⟩ : BufTy).Contents (Elt Ideal)) (x3 : (⟨S65536x1024, .f32⟩ : BufTy).Contents (Elt Ideal)) :
    val_main_v43 (F := Ideal) x0 x1 x2 x3
      = quantArr (val_main_v3 (F := Ideal) x0) x1 (val_main_v2 (F := Ideal) x2 ix0) x3 := by
  funext i
  obtain ⟨r, d, rfl⟩ : ∃ (r : Fin 65536) (d : Fin 64), i = ix2 r d := ⟨i 0, i 1, eq_ix2 i⟩
  rw [ref_quant_apply, ref_logits]
  rfl

end Cert.Quantizer.Ref

end
-- ==== Proof.lean ====
/- A Gaussian vector quantizer: for each of 65536 points and each of 1024 codes the logit
   −(|z|² + |b|² − 2⟨z, b⟩) · precision, a Gumbel-perturbed softmax over the codes at temperature 1/2, and the
   soft-assigned code vector.  The kernel computes them on 64 blocks of 1024 points against precomputed squared code
   lengths and a precomputed transposed codebook; the reference computes them on the whole arrays.  On the extended
   reals a change of float format is the identity and every sum is the same sum, so both programs compute, entry by
   entry, the same functions of the arguments (Spec.lean): the kernel's two output arrays are read off its 64
   write-backs (Blocks, ArrLogits, ArrQuant over the payload lemmas), the reference's off its operations one at a
   time (RefLogits, RefQuant, RefArr), and both programs end by the same re-laying of the two arrays.  The ideal
   pass rewrote nothing, so the kernel's idealization is its own text. -/
import proofs.«156668_j41953240547407_2_alg».proof.Defs
import proofs.«156668_j41953240547407_2_alg».proof.Proof.Gen.Kernel
import proofs.«156668_j41953240547407_2_alg».proof.Proof.Gen.Kernel.Frame
import proofs.«156668_j41953240547407_2_alg».proof.Proof.Gen.KernelIdeal
import proofs.«156668_j41953240547407_2_alg».proof.Proof.Gen.KernelIdeal.Frame
import proofs.«156668_j41953240547407_2_alg».proof.Proof.Gen.ReferenceIdeal
import proofs.«156668_j41953240547407_2_alg».proof.Proof.Gen.ReferenceIdeal.Run
import proofs.«156668_j41953240547407_2_alg».proof.Proof.Gen.ReferenceIdeal.Read
import proofs.«156668_j41953240547407_2_alg».proof.Proof.Gen.Pre_finite_inputs
import proofs.«156668_j41953240547407_2_alg».proof.Proof.Spec
import proofs.«156668_j41953240547407_2_alg».proof.Proof.Entry
import proofs.«156668_j41953240547407_2_alg».proof.Proof.ArrLogits
import proofs.«156668_j41953240547407_2_alg».proof.Proof.ArrQuant
import proofs.«156668_j41953240547407_2_alg».proof.Proof.Tail
import proofs.«156668_j41953240547407_2_alg».proof.Proof.RefLogits
import proofs.«156668_j41953240547407_2_alg».proof.Proof.RefArr
import Idealize.ShloMosaic.Adequacy
import Idealize.ShloMosaic.Init

noncomputable section

namespace Cert.Proof

open Idealize.ShloMosaic Idealize.ShloMosaic.ValueIdx Idealize.SL.Sem
open Cert.Quantizer Cert.Quantizer.Entry

theorem frame_k : Cert.frame_Kernel := fun m ρ _ => Cert.Kernel.Gen.frame m ρ

theorem frame_ki : Cert.frame_KernelIdeal := fun m ρ _ => Cert.KernelIdeal.Gen.frame m ρ

/-- The reference's run with its three results forgotten. -/
theorem frame_ri : Cert.frame_ReferenceIdeal := fun m ρ _ =>
  (θ_run Cert.ReferenceIdeal.defs _ _).mono (fun _ h c => (h c).2.2.2) (Cert.ReferenceIdeal.Value.run (F := Ideal) m ρ)

/-- Both programs end with the quantized points re-laid as [32, 2048, 64], the precision, and the logits re-laid as
    [32, 2048, 1024], each the same function of the arguments. -/
theorem algebraic : Cert.algebraic_KernelIdeal_ReferenceIdeal := by
  intro m ρ m' ρ' _ hagree
  refine ⟨fun c => shapeCast Cert.KernelIdeal.S32x2048x64
        (quantArr (Logits.rows m c) (codes m c) (precArr (logParam m c) ix0) (samples m c))
        Cert.KernelIdeal.Gen.shapeCasts_S65536x64_S32x2048x64,
      fun c => precArr (logParam m c),
      fun c => shapeCast Cert.KernelIdeal.S32x2048x1024
        (logitsArr (Logits.rows m c) (codes m c) (precArr (logParam m c) ix0))
        Cert.KernelIdeal.Gen.shapeCasts_S65536x1024_S32x2048x1024,
      Tail.kernel_run m ρ _ _ (Logits.final_logits m) (Quant.final_quant m), ?_⟩
  refine (θ_run Cert.ReferenceIdeal.defs _ _).mono (fun _ h c => ?_) (Cert.ReferenceIdeal.Value.run (F := Ideal) m' ρ')
  obtain ⟨h1, h2, h3, hargs⟩ := h c
  obtain ⟨a0, a1, a2, a3⟩ := hagree c
  have hrows : Logits.rows m c = Cert.ReferenceIdeal.Read.val_main_v3 (F := Ideal) (points m c) := points_entry m c
  refine ⟨h1.trans ?_, h2.trans ?_, h3.trans ?_, hargs⟩
  · rw [Cert.ReferenceIdeal.Read.val_main_v44_eq, a0, a1, a2, a3]
    show shapeCast _ (Cert.ReferenceIdeal.Read.val_main_v43 (F := Ideal) (points m c) (codes m c) (logParam m c) (samples m c)) _ = _
    rw [Ref.ref_quant, ← hrows]
    rfl
  · rw [a2]
  · rw [Cert.ReferenceIdeal.Read.val_main_v45_eq, a0, a1, a2]
    show shapeCast _ (Cert.ReferenceIdeal.Read.val_main_v20 (F := Ideal) (points m c) (codes m c) (logParam m c)) _ = _
    rw [Ref.ref_logits, ← hrows]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
